-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2000x256x7x7 : Shape := ⟨5, ![2, 2000, 256, 7, 7]⟩
abbrev S2x2000x5 : Shape := ⟨3, ![2, 2000, 5]⟩
abbrev S12544x1024 : Shape := ⟨2, ![12544, 1024]⟩
abbrev S1024 : Shape := ⟨1, ![1024]⟩
abbrev S1024x1024 : Shape := ⟨2, ![1024, 1024]⟩
abbrev S1024x11 : Shape := ⟨2, ![1024, 11]⟩
abbrev S11 : Shape := ⟨1, ![11]⟩
abbrev S1024x5 : Shape := ⟨2, ![1024, 5]⟩
abbrev S5 : Shape := ⟨1, ![5]⟩
abbrev S_ : Shape := ⟨0, ![]⟩

class Facts : Prop where
  bcast_S_S2x2000x256x7x7 : S_.BroadcastsInDim S2x2000x256x7x7 (![] : Fin 0 → Fin S2x2000x256x7x7.rank)
  reducesTo_S2x2000x256x7x7_S_d0_1_2_3_4 : S2x2000x256x7x7.ReducesTo [0, 1, 2, 3, 4] S_
  h_S_ : 0 < S_.numel
  bcast_S_S2x2000x5 : S_.BroadcastsInDim S2x2000x5 (![] : Fin 0 → Fin S2x2000x5.rank)
  reducesTo_S2x2000x5_S_d0_1_2 : S2x2000x5.ReducesTo [0, 1, 2] S_
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x11 : S_.BroadcastsInDim S1024x11 (![] : Fin 0 → Fin S1024x11.rank)
  reducesTo_S1024x11_S_d0_1 : S1024x11.ReducesTo [0, 1] S_
  bcast_S_S11 : S_.BroadcastsInDim S11 (![] : Fin 0 → Fin S11.rank)
  reducesTo_S11_S_d0 : S11.ReducesTo [0] S_
  bcast_S_S1024x5 : S_.BroadcastsInDim S1024x5 (![] : Fin 0 → Fin S1024x5.rank)
  reducesTo_S1024x5_S_d0_1 : S1024x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg7 : FVec F S11 .f32) (main_arg8 : FVec F S1024x5 .f32) (main_arg9 : FVec F S5 .f32) (main_v33 : IVec S_ 1) : IVec S_ 1 :=
  let main_v34 : FVec F S11 .f32 := Host.absf main_arg7
  let main_cst_12 : FVec F S_ .f32 := constant S_ .f32 0x7F800000#32
  let main_v35 : FVec F S11 .f32 := broadcastInDim S11 ![] bcast_S_S11 main_cst_12
  let main_v36 : IVec S11 1 := cmpf .olt main_v34 main_v35
  let main_c_13 : IVec S_ 1 := constantI S_ 1 1#1
  let main_v37 : IVec S_ 1 := (fun x v => Host.reduce IntOp.andi x v reducesTo_S11_S_d0 h_S_) main_v36 main_c_13
  let main_v38 : IVec S_ 1 := andi main_v33 main_v37
  let main_v39 : FVec F S1024x5 .f32 := Host.absf main_arg8
  let main_cst_14 : FVec F S_ .f32 := constant S_ .f32 0x7F800000#32
  let main_v40 : FVec F S1024x5 .f32 := broadcastInDim S1024x5 ![] bcast_S_S1024x5 main_cst_14
  let main_v41 : IVec S1024x5 1 := cmpf .olt main_v39 main_v40
  let main_c_15 : IVec S_ 1 := constantI S_ 1 1#1
  let main_v42 : IVec S_ 1 := (fun x v => Host.reduce IntOp.andi x v reducesTo_S1024x5_S_d0_1 h_S_) main_v41 main_c_15
  let main_v43 : IVec S_ 1 := andi main_v38 main_v42
  let main_v44 : FVec F S5 .f32 := Host.absf main_arg9
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x11 .f32) (main_arg7 : FVec F S11 .f32) (main_arg8 : FVec F S1024x5 .f32) (main_arg9 : FVec F S5 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x11 .f32 := Host.absf main_arg6
  let main_cst_10 : FVec F S_ .f32 := constant S_ .f32 0x7F800000#32
  let main_v30 : FVec F S1024x11 .f32 := broadcastInDim S1024x11 ![] bcast_S_S1024x11 main_cst_10
  let main_v31 : IVec S1024x11 1 := cmpf .olt main_v29 main_v30
  let main_c_11 : IVec S_ 1 := constantI S_ 1 1#1
  let main_v32 : IVec S_ 1 := (fun x v => Host.reduce IntOp.andi x v reducesTo_S1024x11_S_d0_1 h_S_) main_v31 main_c_11
  let main_v33 : IVec S_ 1 := andi main_v28 main_v32
  fn_part2 (F := F) main_arg7 main_arg8 main_arg9 main_v33

def fn {F : FTy → Type} [FloatOps F] (main_arg0 : FVec F S2x2000x256x7x7 .f32) (main_arg1 : FVec F S2x2000x5 .f32) (main_arg2 : FVec F S12544x1024 .f32) (main_arg3 : FVec F S1024 .f32) (main_arg4 : FVec F S1024x1024 .f32) (main_arg5 : FVec F S1024 .f32) (main_arg6 : FVec F S1024x11 .f32) (main_arg7 : FVec F S11 .f32) (main_arg8 : FVec F S1024x5 .f32) (main_arg9 : FVec F S5 .f32) : IVec S_ 1 :=
  let main_v0 : FVec F S2x2000x256x7x7 .f32 := Host.absf main_arg0
  let main_cst : FVec F S_ .f32 := constant S_ .f32 0x7F800000#32
  let main_v1 : FVec F S2x2000x256x7x7 .f32 := broadcastInDim S2x2000x256x7x7 ![] bcast_S_S2x2000x256x7x7 main_cst
  let main_v2 : IVec S2x2000x256x7x7 1 := cmpf .olt main_v0 main_v1
  let main_c : IVec S_ 1 := constantI S_ 1 1#1
  let main_v3 : IVec S_ 1 := (fun x v => Host.reduce IntOp.andi x v reducesTo_S2x2000x256x7x7_S_d0_1_2_3_4 h_S_) main_v2 main_c
  let main_v4 : FVec F S2x2000x5 .f32 := Host.absf main_arg1
  let main_cst_0 : FVec F S_ .f32 := constant S_ .f32 0x7F800000#32
  let main_v5 : FVec F S2x2000x5 .f32 := broadcastInDim S2x2000x5 ![] bcast_S_S2x2000x5 main_cst_0
  let main_v6 : IVec S2x2000x5 1 := cmpf .olt main_v4 main_v5
  let main_c_1 : IVec S_ 1 := constantI S_ 1 1#1
  let main_v7 : IVec S_ 1 := (fun x v => Host.reduce IntOp.andi x v reducesTo_S2x2000x5_S_d0_1_2 h_S_) main_v6 main_c_1
  let main_v8 : IVec S_ 1 := andi main_v3 main_v7
  let main_v9 : FVec F S12544x1024 .f32 := Host.absf main_arg2
  let main_cst_2 : FVec F S_ .f32 := constant S_ .f32 0x7F800000#32
  let main_v10 : FVec F S12544x1024 .f32 := broadcastInDim S12544x1024 ![] bcast_S_S12544x1024 main_cst_2
  let main_v11 : IVec S12544x1024 1 := cmpf .olt main_v9 main_v10
  let main_c_3 : IVec S_ 1 := constantI S_ 1 1#1
  let main_v12 : IVec S_ 1 := (fun x v => Host.reduce IntOp.andi x v reducesTo_S12544x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S2x2000x256x7x7 : Shape := ⟨5, ![2, 2000, 256, 7, 7]⟩
abbrev S2x2000x5 : Shape := ⟨3, ![2, 2000, 5]⟩
abbrev S12544x1024 : Shape := ⟨2, ![12544, 1024]⟩
abbrev S1024 : Shape := ⟨1, ![1024]⟩
abbrev S1024x1024 : Shape := ⟨2, ![1024, 1024]⟩
abbrev S1024x11 : Shape := ⟨2, ![1024, 11]⟩
abbrev S11 : Shape := ⟨1, ![11]⟩
abbrev S1024x5 : Shape := ⟨2, ![1024, 5]⟩
abbrev S5 : Shape := ⟨1, ![5]⟩
abbrev S4000x12544 : Shape := ⟨2, ![4000, 12544]⟩
abbrev S4000x5 : Shape := ⟨2, ![4000, 5]⟩
abbrev S1024x16 : Shape := ⟨2, ![1024, 16]⟩
abbrev S16 : Shape := ⟨1, ![16]⟩
abbrev S1x16 : Shape := ⟨2, ![1, 16]⟩
abbrev S1x1024 : Shape := ⟨2, ![1, 1024]⟩
abbrev S4000x11 : Shape := ⟨2, ![4000, 11]⟩
abbrev S200x12544 : Shape := ⟨2, ![200, 12544]⟩
abbrev S200x5 : Shape := ⟨2, ![200, 5]⟩
abbrev S200x11 : Shape := ⟨2, ![200, 11]⟩
abbrev S200x1024 : Shape := ⟨2, ![200, 1024]⟩
abbrev S200x16 : Shape := ⟨2, ![200, 16]⟩
abbrev S2x2000x11 : Shape := ⟨3, ![2, 2000, 11]⟩

abbrev nBuf : Space → Nat
  | .hbm => 25
  | .vmem => 14
  | .smem => 0
  | _ => 0

abbrev bufTy : (tb : Table) → Fin (tcTables nBuf tb) → BufTy
  | .hbm, ⟨0, _⟩ => ⟨S2x2000x256x7x7, .f32⟩
  | .hbm, ⟨1, _⟩ => ⟨S2x2000x5, .f32⟩
  | .hbm, ⟨2, _⟩ => ⟨S12544x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x11, .f32⟩
  | .hbm, ⟨7, _⟩ => ⟨S11, .f32⟩
  | .hbm, ⟨8, _⟩ => ⟨S1024x5, .f32⟩
  | .hbm, ⟨9, _⟩ => ⟨S5, .f32⟩
  | .hbm, ⟨10, _⟩ => ⟨S4000x12544, .f32⟩
  | .hbm, ⟨11, _⟩ => ⟨S4000x12544, .bf16⟩
  | .hbm, ⟨12, _⟩ => ⟨S4000x5, .f32⟩
  | .hbm, ⟨13, _⟩ => ⟨S12544x1024, .bf16⟩
  | .hbm, ⟨14, _⟩ => ⟨S1024x1024, .bf16⟩
  | .hbm, ⟨15, _⟩ => ⟨S1024x16, .f32⟩
  | .hbm, ⟨16, _⟩ => ⟨S1024x16, .bf16⟩
  | .hbm, ⟨17, _⟩ => ⟨S16, .f32⟩
  | .hbm, ⟨18, _⟩ => ⟨S1x16, .f32⟩
  | .hbm, ⟨19, _⟩ => ⟨S1x1024, .f32⟩
  | .hbm, ⟨20, _⟩ => ⟨S1x1024, .f32⟩
  | .hbm, ⟨21, _⟩ => ⟨S4000x11, .f32⟩
  | .hbm, ⟨22, _⟩ => ⟨S4000x5, .f32⟩
  | .hbm, ⟨23, _⟩ => ⟨S2x2000x11, .f32⟩
  | .hbm, ⟨24, _⟩ => ⟨S2x2000x5, .f32⟩
  | .local _ .vmem, ⟨0, _⟩ => ⟨S200x12544, .bf16⟩
  | .local _ .vmem, ⟨1, _⟩ => ⟨S200x12544, .bf16⟩
  | .local _ .vmem, ⟨2, _⟩ => ⟨S200x5, .f32⟩
  | .local _ .vmem, ⟨3, _⟩ => ⟨S200x5, .f32⟩
  | .local _ .vmem, ⟨4, _⟩ => ⟨S12544x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x16, .bf16⟩
  | .local _ .vmem, ⟨9, _⟩ => ⟨S1x16, .f32⟩
  | .local _ .vmem, ⟨10, _⟩ => ⟨S200x11, .f32⟩
  | .local _ .vmem, ⟨11, _⟩ => ⟨S200x11, .f32⟩
  | .local _ .vmem, ⟨12, _⟩ => ⟨S200x5, .f32⟩
  | .local _ .vmem, ⟨13, _⟩ => ⟨S200x5, .f32⟩
  | _, _ => ⟨S2x2000x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x12544 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12544x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S200x11 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S200x5 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S2x2000x256x7x7_S4000x12544 : S2x2000x256x7x7.ShapeCasts S4000x12544
  bitsLt_bf16_f32 : FTy.bits .bf16 < FTy.bits .f32
  shapeCasts_S2x2000x5_S4000x5 : S2x2000x5.ShapeCasts S4000x5
  concatenates_S1024x11_S1024x5_S1024x16_d1 : Shape.Concatenates [S1024x11, S1024x5] S1024x16 1
  concatenates_S11_S5_S16_d0 : Shape.Concatenates [S11, S5] S16 0
  shapeCasts_S16_S1x16 : S16.ShapeCasts S1x16
  shapeCasts_S1024_S1x1024 : S1024.ShapeCasts S1x1024
  inb_S200x12544_S200x12544_0_0 : ∀ a, (![0, 0] : Fin 2 → Nat) a + S200x12544.size a ≤ S200x12544.size a
  h_S200x12544 : 0 < S200x12544.numel
  shapeCasts_S200x12544_S200x12544 : S200x12544.ShapeCasts S200x12544
  inb_S12544x1024_S12544x1024_0_0 : ∀ a, (![0, 0] : Fin 2 → Nat) a + S12544x1024.size a ≤ S12544x1024.size a
  h_S12544x1024 : 0 < S12544x1024.numel
  shapeCasts_S12544x1024_S12544x1024 : S12544x1024.ShapeCasts S12544x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S200x1024 : S1x1024.Broadcasts S200x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  slices_S200x16_o0_0_S200x11 : S200x16.Slices ![0, 0] S200x11
  slices_S200x16_o0_11_S200x5 : S200x16.Slices ![0, 11] S200x5
  inb_S200x11_S200x11_0_0 : ∀ a, (![0, 0] : Fin 2 → Nat) a + S200x11.size a ≤ S200x11.size a
  h_S200x11 : 0 < S200x11.numel
  inb_S200x5_S200x5_0_0 : ∀ a, (![0, 0] : Fin 2 → Nat) a + S200x5.size a ≤ S200x5.size a
  h_S200x5 : 0 < S200x5.numel
  shapeCasts_S200x5_S200x5 : S200x5.ShapeCasts S200x5
  shapeCasts_S4000x11_S2x2000x11 : S4000x11.ShapeCasts S2x2000x11
  shapeCasts_S4000x5_S2x2000x5 : S4000x5.ShapeCasts S2x2000x5
  dot_S200x12544_S12544x1024_S200x1024_1_0_0_1_n_n_wf : DotDims.WF S200x12544 S12544x1024 S200x1024 [1] [0] [0] [1] [] []
  dot_S200x1024_S1024x1024_S200x1024_1_0_0_1_n_n_wf : DotDims.WF S200x1024 S1024x1024 S200x1024 [1] [0] [0] [1] [] []
  dot_S200x1024_S1024x16_S200x16_1_0_0_1_n_n_wf : DotDims.WF S200x1024 S1024x16 S200x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x12544.size a ≤ S4000x12544.size a
  hwx0_0 : ∀ i : grid0.Coords, EltTy.bits .bf16 = 32 ∨ (Rect.block (s := S4000x12544) S200x12544.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x5.size a ≤ S4000x5.size a
  hwx0_1 : ∀ i : grid0.Coords, EltTy.bits .f32 = 32 ∨ (Rect.block (s := S4000x5) S200x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12544x1024.size a ≤ S12544x1024.size a
  hwx0_2 : ∀ i : grid0.Coords, EltTy.bits .bf16 = 32 ∨ (Rect.block (s := S12544x1024) S12544x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x16.size a ≤ S1024x16.size a
  hwx0_6 : ∀ i : grid0.Coords, EltTy.bits .bf16 = 32 ∨ (Rect.block (s := S1024x16) S1024x16.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x11.size a ≤ S4000x11.size a
  hwx0_8 : ∀ i : grid0.Coords, EltTy.bits .f32 = 32 ∨ (Rect.block (s := S4000x11) S200x11.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S200x5.size a ≤ S4000x5.size a
  hwx0_9 : ∀ i : grid0.Coords, EltTy.bits .f32 = 32 ∨ (Rect.block (s := S4000x5) S200x5.size (cc0_transform_9 i) (hinb0_9 i)).WholeWords (EltTy.packing .f32)

variable [Facts₀]

def dot_S200x12544_S12544x1024_S200x1024_1_0_0_1_n_n : DotDims S200x12544 S12544x1024 S200x1024 where
  lhsContracting := [1]
  rhsContracting := [0]
  lhsNonContracting := [0]
  rhsNonContracting := [1]
  lhsBatch := []
  rhsBatch := []
  wf := dot_S200x12544_S12544x1024_S200x1024_1_0_0_1_n_n_wf
def dot_S200x1024_S1024x1024_S200x1024_1_0_0_1_n_n : DotDims S200x1024 S1024x1024 S200x1024 where
  lhsContracting := [1]
  rhsContracting := [0]
  lhsNonContracting := [0]
  rhsNonContracting := [1]
  lhsBatch := []
  rhsBatch := []
  wf := dot_S200x1024_S1024x1024_S200x1024_1_0_0_1_n_n_wf
def dot_S200x1024_S1024x16_S200x16_1_0_0_1_n_n : DotDims S200x1024 S1024x16 S200x16 where
  lhsContracting := [1]
  rhsContracting := [0]
  lhsNonContracting := [0]
  rhsNonContracting := [1]
  lhsBatch := []
  rhsBatch := []
  wf := dot_S200x1024_S1024x16_S200x16_1_0_0_1_n_n_wf

abbrev win0_0 : Pipeline.Window sig grid0 :=
  Pipeline.Window.ofSpec (Memref.whole main_v1) S200x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S200x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S12544x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11_0) S200x11.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_1) S200x5.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2x2000x256x7x7 : Shape := ⟨5, ![2, 2000, 256, 7, 7]⟩
abbrev S2x2000x5 : Shape := ⟨3, ![2, 2000, 5]⟩
abbrev S12544x1024 : Shape := ⟨2, ![12544, 1024]⟩
abbrev S1024 : Shape := ⟨1, ![1024]⟩
abbrev S1024x1024 : Shape := ⟨2, ![1024, 1024]⟩
abbrev S1024x11 : Shape := ⟨2, ![1024, 11]⟩
abbrev S11 : Shape := ⟨1, ![11]⟩
abbrev S1024x5 : Shape := ⟨2, ![1024, 5]⟩
abbrev S5 : Shape := ⟨1, ![5]⟩
abbrev S2x2000x12544 : Shape := ⟨3, ![2, 2000, 12544]⟩
abbrev S2x2000x1024 : Shape := ⟨3, ![2, 2000, 1024]⟩
abbrev S1x1x1024 : Shape := ⟨3, ![1, 1, 1024]⟩
abbrev S_ : Shape := ⟨0, ![]⟩
abbrev S2x2000x11 : Shape := ⟨3, ![2, 2000, 11]⟩
abbrev S1x1x11 : Shape := ⟨3, ![1, 1, 11]⟩
abbrev S1x1x5 : Shape := ⟨3, ![1, 1, 5]⟩

abbrev nBuf : Space → Nat
  | .hbm => 34
  | .vmem => 0
  | .smem => 0
  | _ => 0

abbrev bufTy : (tb : Table) → Fin (tcTables nBuf tb) → BufTy
  | .hbm, ⟨0, _⟩ => ⟨S2x2000x256x7x7, .f32⟩
  | .hbm, ⟨1, _⟩ => ⟨S2x2000x5, .f32⟩
  | .hbm, ⟨2, _⟩ => ⟨S12544x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x11, .f32⟩
  | .hbm, ⟨7, _⟩ => ⟨S11, .f32⟩
  | .hbm, ⟨8, _⟩ => ⟨S1024x5, .f32⟩
  | .hbm, ⟨9, _⟩ => ⟨S5, .f32⟩
  | .hbm, ⟨10, _⟩ => ⟨S2x2000x12544, .f32⟩
  | .hbm, ⟨11, _⟩ => ⟨S2x2000x1024, .f32⟩
  | .hbm, ⟨12, _⟩ => ⟨S1x1x1024, .f32⟩
  | .hbm, ⟨13, _⟩ => ⟨S2x2000x1024, .f32⟩
  | .hbm, ⟨14, _⟩ => ⟨S2x2000x1024, .f32⟩
  | .hbm, ⟨15, _⟩ => ⟨S_, .f32⟩
  | .hbm, ⟨16, _⟩ => ⟨S2x2000x1024, .f32⟩
  | .hbm, ⟨17, _⟩ => ⟨S2x2000x1024, .f32⟩
  | .hbm, ⟨18, _⟩ => ⟨S2x2000x1024, .f32⟩
  | .hbm, ⟨19, _⟩ => ⟨S1x1x1024, .f32⟩
  | .hbm, ⟨20, _⟩ => ⟨S2x2000x1024, .f32⟩
  | .hbm, ⟨21, _⟩ => ⟨S2x2000x1024, .f32⟩
  | .hbm, ⟨22, _⟩ => ⟨S_, .f32⟩
  | .hbm, ⟨23, _⟩ => ⟨S2x2000x1024, .f32⟩
  | .hbm, ⟨24, _⟩ => ⟨S2x2000x1024, .f32⟩
  | .hbm, ⟨25, _⟩ => ⟨S2x2000x11, .f32⟩
  | .hbm, ⟨26, _⟩ => ⟨S1x1x11, .f32⟩
  | .hbm, ⟨27, _⟩ => ⟨S2x2000x11, .f32⟩
  | .hbm, ⟨28, _⟩ => ⟨S2x2000x11, .f32⟩
  | .hbm, ⟨29, _⟩ => ⟨S2x2000x5, .f32⟩
  | .hbm, ⟨30, _⟩ => ⟨S1x1x5, .f32⟩
  | .hbm, ⟨31, _⟩ => ⟨S2x2000x5, .f32⟩
  | .hbm, ⟨32, _⟩ => ⟨S2x2000x5, .f32⟩
  | .hbm, ⟨33, _⟩ => ⟨S2x2000x5, .f32⟩
  | _, _ => ⟨S2x2000x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_cst : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  shapeCasts_S2x2000x256x7x7_S2x2000x12544 : S2x2000x256x7x7.ShapeCasts S2x2000x12544
  bcast_S1024_S1x1x1024_2 : S1024.BroadcastsInDim S1x1x1024 (![2] : Fin 1 → Fin S1x1x1024.rank)
  bcast_S1x1x1024_S2x2000x1024_0_1_2 : S1x1x1024.BroadcastsInDim S2x2000x1024 (![0, 1, 2] : Fin 3 → Fin S2x2000x1024.rank)
  bcast_S_S2x2000x1024 : S_.BroadcastsInDim S2x2000x1024 (![] : Fin 0 → Fin S2x2000x1024.rank)
  bcast_S11_S1x1x11_2 : S11.BroadcastsInDim S1x1x11 (![2] : Fin 1 → Fin S1x1x11.rank)
  bcast_S1x1x11_S2x2000x11_0_1_2 : S1x1x11.BroadcastsInDim S2x2000x11 (![0, 1, 2] : Fin 3 → Fin S2x2000x11.rank)
  bcast_S5_S1x1x5_2 : S5.BroadcastsInDim S1x1x5 (![2] : Fin 1 → Fin S1x1x5.rank)
  bcast_S1x1x5_S2x2000x5_0_1_2 : S1x1x5.BroadcastsInDim S2x2000x5 (![0, 1, 2] : Fin 3 → Fin S2x2000x5.rank)
  dot_S2x2000x12544_S12544x1024_S2x2000x1024_2_0_01_1_n_n_wf : DotDims.WF S2x2000x12544 S12544x1024 S2x2000x1024 [2] [0] [0, 1] [1] [] []
  dot_S2x2000x1024_S1024x1024_S2x2000x1024_2_0_01_1_n_n_wf : DotDims.WF S2x2000x1024 S1024x1024 S2x2000x1024 [2] [0] [0, 1] [1] [] []
  dot_S2x2000x1024_S1024x11_S2x2000x11_2_0_01_1_n_n_wf : DotDims.WF S2x2000x1024 S1024x11 S2x2000x11 [2] [0] [0, 1] [1] [] []
  dot_S2x2000x1024_S1024x5_S2x2000x5_2_0_01_1_n_n_wf : DotDims.WF S2x2000x1024 S1024x5 S2x2000x5 [2] [0] [0, 1] [1] [] []

variable [Facts₀]

def dot_S2x2000x12544_S12544x1024_S2x2000x1024_2_0_01_1_n_n : DotDims S2x2000x12544 S12544x1024 S2x2000x1024 where
  lhsContracting := [2]
  rhsContracting := [0]
  lhsNonContracting := [0, 1]
  rhsNonContracting := [1]
  lhsBatch := []
  rhsBatch := []
  wf := dot_S2x2000x12544_S12544x1024_S2x2000x1024_2_0_01_1_n_n_wf
def dot_S2x2000x1024_S1024x1024_S2x2000x1024_2_0_01_1_n_n : DotDims S2x2000x1024 S1024x1024 S2x2000x1024 where
  lhsContracting := [2]
  rhsContracting := [0]
  lhsNonContracting := [0, 1]
  rhsNonContracting := [1]
  lhsBatch := []
  rhsBatch := []
  wf := dot_S2x2000x1024_S1024x1024_S2x2000x1024_2_0_01_1_n_n_wf
def dot_S2x2000x1024_S1024x11_S2x2000x11_2_0_01_1_n_n : DotDims S2x2000x1024 S1024x11 S2x2000x11 where
  lhsContracting := [2]
  rhsContracting := [0]
  lhsNonContracting := [0, 1]
  rhsNonContracting := [1]
  lhsBatch := []
  rhsBatch := []
  wf := dot_S2x2000x1024_S1024x11_S2x2000x11_2_0_01_1_n_n_wf
def dot_S2x2000x1024_S1024x5_S2x2000x5_2_0_01_1_n_n : DotDims S2x2000x1024 S1024x5 S2x2000x5 where
  lhsContracting := [2]
  rhsContracting := [0]
  lhsNonContracting := [0, 1]
  rhsNonContracting := [1]
  lhsBatch := []
  rhsBatch := []
  wf := dot_S2x2000x1024_S1024x5_S2x2000x5_2_0_01_1_n_n_wf

class Facts : Prop extends Facts₀ where

variable [Facts]
-- ==== Proof.HeadSpec.lean ====
/-
  The dense head of a box detector on ONE token, over the extended reals, and the two result arrays it gives.

  A token's feature row `x` (12544 numbers) goes through two dense layers, each followed by the positive part,
  `h1 e = max (Σ_d x d · w1 d e + b1 e) 0` and `h2 e = max (Σ_k h1 k · w2 k e + b2 e) 0`, and then through an affine
  head `Σ_k h2 k · w3 k c + b3 c`. The class scores use the head `(wc, bc)` (11 columns); the box regression uses the
  head `(wr, br)` (5 columns) and is added to the token's box. An affine map's value at one output column depends only
  on that column of the weights and of the bias (`affine_col`): so a head whose weight matrix is `wc` and `wr` laid side
  by side (16 columns) gives the class scores in its first 11 columns and the box regression in its last 5.

  Tokens are numbered `r = b · 2000 + n` (image `b`, proposal `n`), and token `r`'s feature `d` is the element of the
  feature array at row-major position `r · 12544 + d`.
-/
import Idealize.ShloMosaic.PureOps.Ideal
import Idealize.ShloMosaic.Lib.ValueIdx

noncomputable section

namespace Cert.HeadSpec

open Idealize.ShloMosaic Idealize.ShloMosaic.ValueIdx

/-- An affine map read at one output column: `Σ_k x k · w k e + b e`. -/
def affine {K N : ℕ} (x : Fin K → EReal) (w : Fin K → Fin N → EReal) (b : Fin N → EReal) (e : Fin N) : EReal :=
  (∑ k : Fin K, x k * w k e) + b e

/-- A dense layer followed by the positive part. -/
def hidden {K N : ℕ} (x : Fin K → EReal) (w : Fin K → Fin N → EReal) (b : Fin N → EReal) : Fin N → EReal :=
  fun e => max (affine x w b e) 0

/-- Two hidden layers and an affine head with `N` output columns, on one token's feature row. -/
def head {N : ℕ} (x : Fin 12544 → EReal) (w1 : Fin 12544 → Fin 1024 → EReal) (b1 : Fin 1024 → EReal)
    (w2 : Fin 1024 → Fin 1024 → EReal) (b2 : Fin 1024 → EReal) (w3 : Fin 1024 → Fin N → EReal) (b3 : Fin N → EReal) :
    Fin N → EReal :=
  affine (hidden (hidden x w1 b1) w2 b2) w3 b3

/-- An affine map's value at a column depends only on that column of the weights and that entry of the bias. -/
theorem affine_col {K N N' : ℕ} (x : Fin K → EReal) (w : Fin K → Fin N → EReal) (b : Fin N → EReal)
    (w' : Fin K → Fin N' → EReal) (b' : Fin N' → EReal) (e : Fin N) (e' : Fin N')
    (hw : ∀ k, w k e = w' k e') (hb : b e = b' e') : affine x w b e = affine x w' b' e' := by
  unfold affine
  rw [hb]
  exact congrArg (· + b' e') (Finset.sum_congr rfl fun k _ => by rw [hw k])

/-- So does the whole head's. -/
theorem head_col {N N' : ℕ} (x : Fin 12544 → EReal) (w1 : Fin 12544 → Fin 1024 → EReal) (b1 : Fin 1024 → EReal)
    (w2 : Fin 1024 → Fin 1024 → EReal) (b2 : Fin 1024 → EReal) (w3 : Fin 1024 → Fin N → EReal) (b3 : Fin N → EReal)
    (w3' : Fin 1024 → Fin N' → EReal) (b3' : Fin N' → EReal) (e : Fin N) (e' : Fin N')
    (hw : ∀ k, w3 k e = w3' k e') (hb : b3 e = b3' e') :
    head x w1 b1 w2 b2 w3 b3 e = head x w1 b1 w2 b2 w3' b3' e' :=
  affine_col _ w3 b3 w3' b3' e e' hw hb

/-! ## The arrays -/

/-- The feature array's index of token `r`'s feature `d`: the coordinates of row-major position `r · 12544 + d`. -/
def featIdx (r : Fin 4000) (d : Fin 12544) : (⟨5, ![2, 2000, 256, 7, 7]⟩ : Shape).Idx :=
  ix5 (⟨(r.val * 12544 + d.val) / 25088000, by have := r.isLt; have := d.isLt; omega⟩ : Fin 2)
    (⟨(r.val * 12544 + d.val) / 12544 % 2000, by omega⟩ : Fin 2000)
    (⟨(r.val * 12544 + d.val) / 49 % 256, by omega⟩ : Fin 256)
    (⟨(r.val * 12544 + d.val) / 7 % 7, by omega⟩ : Fin 7)
    (⟨(r.val * 12544 + d.val) % 7, by omega⟩ : Fin 7)

/-- Token `(b, n)`'s number. -/
def tok (b : Fin 2) (n : Fin 2000) : Fin 4000 := ⟨b.val * 2000 + n.val, by have := b.isLt; have := n.isLt; omega⟩

variable (x : (⟨5, ![2, 2000, 256, 7, 7]⟩ : Shape).Idx → EReal)
  (w1 : (⟨2, ![12544, 1024]⟩ : Shape).Idx → EReal) (b1 : (⟨1, ![1024]⟩ : Shape).Idx → EReal)
  (w2 : (⟨2, ![1024, 1024]⟩ : Shape).Idx → EReal) (b2 : (⟨1, ![1024]⟩ : Shape).Idx → EReal)

/-- Token `r`'s head with weights `w3` and bias `b3`, from the argument arrays. -/
def tokenHead {N : ℕ} (w3 : (⟨2, ![1024, N]⟩ : Shape).Idx → EReal) (b3 : (⟨1, ![N]⟩ : Shape).Idx → EReal) (r : Fin 4000) :
    Fin N → EReal :=
  head (fun d => x (featIdx r d)) (fun d e => w1 (ix2 d e)) (fun e => b1 (ix1 e)) (fun k e => w2 (ix2 k e)) (fun e => b2 (ix1 e))
    (fun k c => w3 (ix2 k c)) (fun c => b3 (ix1 c))

/-- The class scores: token `(b, n)`'s class head at column `j`. -/
def clsOut (wc : (⟨2, ![1024, 11]⟩ : Shape).Idx → EReal) (bc : (⟨1, ![11]⟩ : Shape).Idx → EReal) :
    (⟨3, ![2, 2000, 11]⟩ : Shape).Idx → EReal :=
  fun i => tokenHead x w1 b1 w2 b2 wc bc (tok (i 0) (i 1)) (i 2)

/-- The refined boxes: token `(b, n)`'s box plus its regression head at column `q`. -/
def boxOut (boxes : (⟨3, ![2, 2000, 5]⟩ : Shape).Idx → EReal) (wr : (⟨2, ![1024, 5]⟩ : Shape).Idx → EReal)
    (br : (⟨1, ![5]⟩ : Shape).Idx → EReal) : (⟨3, ![2, 2000, 5]⟩ : Shape).Idx → EReal :=
  fun i => boxes i + tokenHead x w1 b1 w2 b2 wr br (tok (i 0) (i 1)) (i 2)

end Cert.HeadSpec

end
-- ==== Proof.RefSpec.lean ====
/-
  The reference's two results are the specification's arrays.

  Read one operation at a time, the reference computes at token `(b, n)`: the feature row as the elements of the
  feature array at row-major positions `(b · 2000 + n) · 12544 + d`; a matrix product with `w1` (a sum over `d`), the
  bias `b1` added, the maximum with zero; the same again with `w2`, `b2`; then one product with `wc` plus `bc` (the
  class scores) and one with `wr` plus `br`, added to the token's box. Each index map of those readings is a map between
  coordinates, named here by its coordinates; what is left is the specification's own nest of sums.
-/
import proofs.«128121_j1906965480114_2_alg».proof.Proof.Gen.ReferenceIdeal.Read
import proofs.«128121_j1906965480114_2_alg».proof.Proof.HeadSpec
import Idealize.ShloMosaic.PureOps.Ideal.Laws

noncomputable section

namespace Cert.RefSpec

open Cert.ReferenceIdeal Cert.ReferenceIdeal.Read Cert.HeadSpec Idealize.ShloMosaic Idealize.ShloMosaic.ValueIdx

variable (x0 : (⟨S2x2000x256x7x7, .f32⟩ : BufTy).Contents (Elt Ideal)) (x1 : (⟨S2x2000x5, .f32⟩ : BufTy).Contents (Elt Ideal))
  (x2 : (⟨S12544x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x11, .f32⟩ : BufTy).Contents (Elt Ideal)) (x7 : (⟨S11, .f32⟩ : BufTy).Contents (Elt Ideal))
  (x8 : (⟨S1024x5, .f32⟩ : BufTy).Contents (Elt Ideal)) (x9 : (⟨S5, .f32⟩ : BufTy).Contents (Elt Ideal))

/-- The first hidden layer at token `(b, n)`, unit `e`. -/
theorem hid1 (b : Fin 2) (n : Fin 2000) (e : Fin 1024) :
    val_main_v5 (F := Ideal) x0 x2 x3 (ix3 b n e)
      = hidden (fun d => x0 (featIdx (tok b n) d)) (fun d e => x2 (ix2 d e)) (fun e => x3 (ix1 e)) e := by
  rw [val_main_v5_apply, val_main_v4_apply, val_main_v1_apply, val_main_v3_apply, val_main_v2_apply, val_main_call0_v0_apply,
    val_main_call0_cst_apply]
  simp only [val_main_v0_apply]
  have e0 : ∀ d : Fin 12544, idx_main_v0 (lidx_main_v1 (ix3 b n e) d) = featIdx (tok b n) d := fun d =>
    funext fun a => Fin.ext (by
      match a with
      | ⟨0, _⟩ => rfl
      | ⟨1, _⟩ => rfl
      | ⟨2, _⟩ => rfl
      | ⟨3, _⟩ => rfl
      | ⟨4, _⟩ => rfl)
  have e1 : ∀ d : Fin 12544, ridx_main_v1 (ix3 b n e) d = ix2 d e := fun d =>
    funext fun a => Fin.ext (by
      match a with
      | ⟨0, _⟩ => rfl
      | ⟨1, _⟩ => rfl)
  have e2 : idx_main_v2 (idx_main_v3 (ix3 b n e)) = ix1 e :=
    funext fun a => Fin.ext (by
      match a with
      | ⟨0, _⟩ => rfl)
  simp only [e0, e1, e2, Ideal.addf_def, Ideal.maximumf_def, Ideal.ofBits_def, Ideal.ofBits_zero_f32]
  rfl

/-- The second hidden layer at token `(b, n)`, unit `e`. -/
theorem hid2 (b : Fin 2) (n : Fin 2000) (e : Fin 1024) :
    val_main_v10 (F := Ideal) x0 x2 x3 x4 x5 (ix3 b n e)
      = hidden (hidden (fun d => x0 (featIdx (tok b n) d)) (fun d e => x2 (ix2 d e)) (fun e => x3 (ix1 e)))
          (fun k e => x4 (ix2 k e)) (fun e => x5 (ix1 e)) e := by
  rw [val_main_v10_apply, val_main_v9_apply, val_main_v6_apply, val_main_v8_apply, val_main_v7_apply, val_main_call1_v0_apply,
    val_main_call1_cst_apply]
  have e0 : ∀ k : Fin 1024, lidx_main_v6 (ix3 b n e) k = ix3 b n k := fun k =>
    funext fun a => Fin.ext (by
      match a with
      | ⟨0, _⟩ => rfl
      | ⟨1, _⟩ => rfl
      | ⟨2, _⟩ => rfl)
  have e1 : ∀ k : Fin 1024, ridx_main_v6 (ix3 b n e) k = ix2 k e := fun k =>
    funext fun a => Fin.ext (by
      match a with
      | ⟨0, _⟩ => rfl
      | ⟨1, _⟩ => rfl)
  have e2 : idx_main_v7 (idx_main_v8 (ix3 b n e)) = ix1 e :=
    funext fun a => Fin.ext (by
      match a with
      | ⟨0, _⟩ => rfl)
  simp only [e0, e1, e2, hid1, Ideal.addf_def, Ideal.maximumf_def, Ideal.ofBits_def, Ideal.ofBits_zero_f32]
  rfl

/-- The reference's class scores are the specification's. -/
theorem cls_eq : val_main_v14 (F := Ideal) x0 x2 x3 x4 x5 x6 x7 = clsOut x0 x2 x3 x4 x5 x6 x7 := by
  funext i
  obtain ⟨b, n, j, rfl⟩ : ∃ (b : Fin 2) (n : Fin 2000) (j : Fin 11), i = ix3 b n j := ⟨i 0, i 1, i 2, eq_ix3 i⟩
  rw [val_main_v14_apply, val_main_v11_apply, val_main_v13_apply, val_main_v12_apply]
  have e0 : ∀ k : Fin 1024, lidx_main_v11 (ix3 b n j) k = ix3 b n k := fun k =>
    funext fun a => Fin.ext (by
      match a with
      | ⟨0, _⟩ => rfl
      | ⟨1, _⟩ => rfl
      | ⟨2, _⟩ => rfl)
  have e1 : ∀ k : Fin 1024, ridx_main_v11 (ix3 b n j) k = ix2 k j := fun k =>
    funext fun a => Fin.ext (by
      match a with
      | ⟨0, _⟩ => rfl
      | ⟨1, _⟩ => rfl)
  have e2 : idx_main_v12 (idx_main_v13 (ix3 b n j)) = ix1 j :=
    funext fun a => Fin.ext (by
      match a with
      | ⟨0, _⟩ => rfl)
  simp only [e0, e1, e2, hid2, Ideal.addf_def]
  rfl

/-- The reference's refined boxes are the specification's. -/
theorem box_eq : val_main_v19 (F := Ideal) x0 x1 x2 x3 x4 x5 x8 x9 = boxOut x0 x2 x3 x4 x5 x1 x8 x9 := by
  funext i
  obtain ⟨b, n, q, rfl⟩ : ∃ (b : Fin 2) (n : Fin 2000) (q : Fin 5), i = ix3 b n q := ⟨i 0, i 1, i 2, eq_ix3 i⟩
  rw [val_main_v19_apply, val_main_v18_apply, val_main_v15_apply, val_main_v17_apply, val_main_v16_apply]
  have e0 : ∀ k : Fin 1024, lidx_main_v15 (ix3 b n q) k = ix3 b n k := fun k =>
    funext fun a => Fin.ext (by
      match a with
      | ⟨0, _⟩ => rfl
      | ⟨1, _⟩ => rfl
      | ⟨2, _⟩ => rfl)
  have e1 : ∀ k : Fin 1024, ridx_main_v15 (ix3 b n q) k = ix2 k q := fun k =>
    funext fun a => Fin.ext (by
      match a with
      | ⟨0, _⟩ => rfl
      | ⟨1, _⟩ => rfl)
  have e2 : idx_main_v16 (idx_main_v17 (ix3 b n q)) = ix1 q :=
    funext fun a => Fin.ext (by
      match a with
      | ⟨0, _⟩ => rfl)
  simp only [e0, e1, e2, hid2, Ideal.addf_def]
  rfl

end Cert.RefSpec

end
-- ==== Proof.LibConcat2.lean ====
/-
  A concatenation of TWO arrays along the last axis, read at an index: a column below the first piece's width
  comes from the first piece at that column, a column at or above it from the second piece at the column less that
  width. Stated at rank 3 (pieces `[n0, n1, m1]` and `[n0, n1, m2]`) and at rank 2 (pieces `[n0, m1]` and
  `[n0, m2]`), with every index written by its coordinates.
-/
import Idealize.ShloMosaic.Lib.Pipeline.Value
import Idealize.ShloMosaic.Lib.ValueIdx

namespace Cert.LibConcat2

open Idealize.ShloMosaic Idealize.ShloMosaic.ValueIdx

variable {α : Type}

/-- Rank 3, a column of the first piece. -/
theorem last3_left {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : e.val < m1) :
    concatenate ⟨3, ![n0, n1, m]⟩ 2 [⟨⟨3, ![n0, n1, m1]⟩, x⟩, ⟨⟨3, ![n0, n1, m2]⟩, y⟩] h (ix3 b i e)
      = x (ix3 b i ⟨e.val, he⟩) :=
  concatenate_apply_piece (t := ⟨3, ![n0, n1, m]⟩) (2 : Fin 3) [⟨⟨3, ![n0, n1, m1]⟩, x⟩, ⟨⟨3, ![n0, n1, m2]⟩, y⟩] h (ix3 b i e) 0 Nat.zero_lt_two _ x rfl rfl 0 rfl (ix3 b i ⟨e.val, he⟩)
    (fun c hc => by
      match c with
      | ⟨0, _⟩ => rfl
      | ⟨1, _⟩ => rfl
      | ⟨2, _⟩ => exact absurd rfl hc)
    (Nat.zero_add _)

/-- Rank 3, a column of the second piece. -/
theorem last3_right {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : m1 ≤ e.val) (he' : e.val - m1 < m2) :
    concatenate ⟨3, ![n0, n1, m]⟩ 2 [⟨⟨3, ![n0, n1, m1]⟩, x⟩, ⟨⟨3, ![n0, n1, m2]⟩, y⟩] h (ix3 b i e)
      = y (ix3 b i ⟨e.val - m1, he'⟩) :=
  concatenate_apply_piece (t := ⟨3, ![n0, n1, m]⟩) (2 : Fin 3) [⟨⟨3, ![n0, n1, m1]⟩, x⟩, ⟨⟨3, ![n0, n1, m2]⟩, y⟩] h (ix3 b i e) 1 Nat.one_lt_two _ y rfl rfl m1 (by simp) (ix3 b i ⟨e.val - m1, he'⟩)
    (fun c hc => by
      match c with
      | ⟨0, _⟩ => rfl
      | ⟨1, _⟩ => rfl
      | ⟨2, _⟩ => exact absurd rfl hc)
    (by show m1 + (e.val - m1) = e.val; omega)

/-- Rank 2, a column of the first piece. -/
theorem last2_left {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : e.val < m1) :
    concatenate ⟨2, ![n0, m]⟩ 1 [⟨⟨2, ![n0, m1]⟩, x⟩, ⟨⟨2, ![n0, m2]⟩, y⟩] h (ix2 i e)
      = x (ix2 i ⟨e.val, he⟩) :=
  concatenate_apply_piece (t := ⟨2, ![n0, m]⟩) (1 : Fin 2) [⟨⟨2, ![n0, m1]⟩, x⟩, ⟨⟨2, ![n0, m2]⟩, y⟩] h (ix2 i e) 0 Nat.zero_lt_two _ x rfl rfl 0 rfl (ix2 i ⟨e.val, he⟩)
    (fun c hc => by
      match c with
      | ⟨0, _⟩ => rfl
      | ⟨1, _⟩ => exact absurd rfl hc)
    (Nat.zero_add _)

/-- Rank 2, a column of the second piece. -/
theorem last2_right {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : m1 ≤ e.val) (he' : e.val - m1 < m2) :
    concatenate ⟨2, ![n0, m]⟩ 1 [⟨⟨2, ![n0, m1]⟩, x⟩, ⟨⟨2, ![n0, m2]⟩, y⟩] h (ix2 i e)
      = y (ix2 i ⟨e.val - m1, he'⟩) :=
  concatenate_apply_piece (t := ⟨2, ![n0, m]⟩) (1 : Fin 2) [⟨⟨2, ![n0, m1]⟩, x⟩, ⟨⟨2, ![n0, m2]⟩, y⟩] h (ix2 i e) 1 Nat.one_lt_two _ y rfl rfl m1 (by simp) (ix2 i ⟨e.val - m1, he'⟩)
    (fun c hc => by
      match c with
      | ⟨0, _⟩ => rfl
      | ⟨1, _⟩ => exact absurd rfl hc)
    (by show m1 + (e.val - m1) = e.val; omega)

end Cert.LibConcat2
-- ==== Proof.LibConcat1.lean ====
/-
  A concatenation of TWO vectors read at an index: an entry below the first vector's length comes from the first
  vector at that entry, an entry at or above it from the second at the entry less that length.
-/
import Idealize.ShloMosaic.Lib.Pipeline.Value
import Idealize.ShloMosaic.Lib.ValueIdx

namespace Cert.LibConcat1

open Idealize.ShloMosaic Idealize.ShloMosaic.ValueIdx

variable {α : Type}

/-- An entry of the first vector. -/
theorem vec_left {m1 m2 m : ℕ} (x : (⟨1, ![m1]⟩ : Shape).Idx → α) (y : (⟨1, ![m2]⟩ : Shape).Idx → α)
    (h : Shape.Concatenates [(⟨1, ![m1]⟩ : Shape), ⟨1, ![m2]⟩] ⟨1, ![m]⟩ 0) (e : Fin m) (he : e.val < m1) :
    concatenate ⟨1, ![m]⟩ 0 [⟨⟨1, ![m1]⟩, x⟩, ⟨⟨1, ![m2]⟩, y⟩] h (ix1 e) = x (ix1 ⟨e.val, he⟩) :=
  concatenate_apply_piece (t := ⟨1, ![m]⟩) (0 : Fin 1) [⟨⟨1, ![m1]⟩, x⟩, ⟨⟨1, ![m2]⟩, y⟩] h (ix1 e) 0 Nat.zero_lt_two _ x rfl rfl 0 rfl (ix1 ⟨e.val, he⟩)
    (fun c hc => by
      match c with
      | ⟨0, _⟩ => exact absurd rfl hc)
    (Nat.zero_add _)

/-- An entry of the second vector. -/
theorem vec_right {m1 m2 m : ℕ} (x : (⟨1, ![m1]⟩ : Shape).Idx → α) (y : (⟨1, ![m2]⟩ : Shape).Idx → α)
    (h : Shape.Concatenates [(⟨1, ![m1]⟩ : Shape), ⟨1, ![m2]⟩] ⟨1, ![m]⟩ 0) (e : Fin m) (he : m1 ≤ e.val) (he' : e.val - m1 < m2) :
    concatenate ⟨1, ![m]⟩ 0 [⟨⟨1, ![m1]⟩, x⟩, ⟨⟨1, ![m2]⟩, y⟩] h (ix1 e) = y (ix1 ⟨e.val - m1, he'⟩) :=
  concatenate_apply_piece (t := ⟨1, ![m]⟩) (0 : Fin 1) [⟨⟨1, ![m1]⟩, x⟩, ⟨⟨1, ![m2]⟩, y⟩] h (ix1 e) 1 Nat.one_lt_two _ y rfl rfl m1 (by simp) (ix1 ⟨e.val - m1, he'⟩)
    (fun c hc => by
      match c with
      | ⟨0, _⟩ => exact absurd rfl hc)
    (by show m1 + (e.val - m1) = e.val; omega)

end Cert.LibConcat1
-- ==== Proof.EntryValue.lean ====
/-
  What the kernel's region finds in its operand arrays, read at an index, in terms of the argument arrays.

  Before the region the program lays the features out as token rows (`[4000, 12544]`: token `r`'s feature `d` is the
  feature array's element at row-major position `r · 12544 + d`) and the boxes as `[4000, 5]`, sets the class and box
  weight matrices side by side (`[1024, 16]`: columns 0 to 10 from `wc`, columns 11 to 15 from `wr`) and the two biases
  end to end (16 entries, as one row), and makes each of `b1`, `b2` a one-row matrix. The roundings to the narrower
  format change nothing over the extended reals.
-/
import proofs.«128121_j1906965480114_2_alg».proof.Proof.Gen.KernelIdeal.Frame
import proofs.«128121_j1906965480114_2_alg».proof.Proof.HeadSpec
import proofs.«128121_j1906965480114_2_alg».proof.Proof.LibConcat2
import proofs.«128121_j1906965480114_2_alg».proof.Proof.LibConcat1
import Idealize.ShloMosaic.Lib.StableHlo.Run
import Idealize.ShloMosaic.Lib.ValueIdx
import Idealize.ShloMosaic.Lib.ValueLayout
import Idealize.ShloMosaic.Lib.Pipeline.Value

noncomputable section

namespace Cert.EntryValue

open Cert.KernelIdeal Cert.KernelIdeal.Gen Cert.HeadSpec Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## Each operand array as the host operations' term of the arguments -/

theorem feat_term : (V m c main_v1 : S4000x12544.Idx → EReal)
    = shapeCast S4000x12544 (m ((c : Thread nD τ).loc main_arg0)) shapeCasts_S2x2000x256x7x7_S4000x12544 := by
  show StableHlo.after hostOps0 (fun b => m (c, b)) (Proc.devRef .tc main_v1) = _
  after_results
  rfl

theorem box_term : (V m c main_v2 : S4000x5.Idx → EReal)
    = shapeCast S4000x5 (m ((c : Thread nD τ).loc main_arg1)) shapeCasts_S2x2000x5_S4000x5 := by
  show StableHlo.after hostOps0 (fun b => m (c, b)) (Proc.devRef .tc main_v2) = _
  after_results
  rfl

theorem w1_term : (V m c main_v3 : S12544x1024.Idx → EReal)
    = m ((c : Thread nD τ).loc main_arg2) := by
  show StableHlo.after hostOps0 (fun b => m (c, b)) (Proc.devRef .tc main_v3) = _
  after_results
  rfl

theorem w2_term : (V m c main_v4 : S1024x1024.Idx → EReal)
    = m ((c : Thread nD τ).loc main_arg4) := by
  show StableHlo.after hostOps0 (fun b => m (c, b)) (Proc.devRef .tc main_v4) = _
  after_results
  rfl

theorem wcr_term : (V m c main_v6 : S1024x16.Idx → EReal)
    = concatenate S1024x16 1 [⟨S1024x11, m ((c : Thread nD τ).loc main_arg6)⟩, ⟨S1024x5, m ((c : Thread nD τ).loc main_arg8)⟩] concatenates_S1024x11_S1024x5_S1024x16_d1 := by
  show StableHlo.after hostOps0 (fun b => m (c, b)) (Proc.devRef .tc main_v6) = _
  after_results
  rfl

theorem bcr_term : (V m c main_v8 : S1x16.Idx → EReal)
    = shapeCast S1x16 (concatenate S16 0 [⟨S11, m ((c : Thread nD τ).loc main_arg7)⟩, ⟨S5, m ((c : Thread nD τ).loc main_arg9)⟩] concatenates_S11_S5_S16_d0) shapeCasts_S16_S1x16 := by
  show StableHlo.after hostOps0 (fun b => m (c, b)) (Proc.devRef .tc main_v8) = _
  after_results
  rfl

theorem b1_term : (V m c main_v9 : S1x1024.Idx → EReal)
    = shapeCast S1x1024 (m ((c : Thread nD τ).loc main_arg3)) shapeCasts_S1024_S1x1024 := by
  show StableHlo.after hostOps0 (fun b => m (c, b)) (Proc.devRef .tc main_v9) = _
  after_results
  rfl

theorem b2_term : (V m c main_v10 : S1x1024.Idx → EReal)
    = shapeCast S1x1024 (m ((c : Thread nD τ).loc main_arg5)) shapeCasts_S1024_S1x1024 := by
  show StableHlo.after hostOps0 (fun b => m (c, b)) (Proc.devRef .tc main_v10) = _
  after_results
  rfl

/-! ## Read at an index -/

/-- Token `r`'s feature `d`. -/
theorem feat_at (r : Fin 4000) (d : Fin 12544) : V m c main_v1 (ix2 r d) = m ((c : Thread nD τ).loc main_arg0) (featIdx r d) := by
  rw [feat_term]
  refine shapeCast_apply _ _ (ix2 r d) (featIdx r d) ?_
  rw [Shape.rowMajor_val_five, Shape.rowMajor_val_two]
  have hr : r.val < 4000 := r.isLt
  have hd : d.val < 12544 := d.isLt
  have key : ((((r.val * 12544 + d.val) / 25088000 * 2000 + (r.val * 12544 + d.val) / 12544 % 2000) * 256 + (r.val * 12544 + d.val) / 49 % 256) * 7 + (r.val * 12544 + d.val) / 7 % 7) * 7 + (r.val * 12544 + d.val) % 7 = r.val * 12544 + d.val := by omega
  exact key

/-- Token `(b, n)`'s box coordinate `q`. -/
theorem box_at (b : Fin 2) (n : Fin 2000) (q : Fin 5) : V m c main_v2 (ix2 (tok b n) q) = m ((c : Thread nD τ).loc main_arg1) (ix3 b n q) := by
  rw [box_term]
  refine shapeCast_apply _ _ (ix2 (tok b n) q) (ix3 b n q) ?_
  rw [Shape.rowMajor_val_three, Shape.rowMajor_val_two]
  rfl

theorem w1_at (d : Fin 12544) (e : Fin 1024) : V m c main_v3 (ix2 d e) = m ((c : Thread nD τ).loc main_arg2) (ix2 d e) := by
  rw [w1_term]

theorem w2_at (k : Fin 1024) (e : Fin 1024) : V m c main_v4 (ix2 k e) = m ((c : Thread nD τ).loc main_arg4) (ix2 k e) := by
  rw [w2_term]

theorem b1_at (e : Fin 1024) : V m c main_v9 (ix2 (0 : Fin 1) e) = m ((c : Thread nD τ).loc main_arg3) (ix1 e) := by
  rw [b1_term]
  exact shapeCast_a_1a_apply _ _ 0 e

theorem b2_at (e : Fin 1024) : V m c main_v10 (ix2 (0 : Fin 1) e) = m ((c : Thread nD τ).loc main_arg5) (ix1 e) := by
  rw [b2_term]
  exact shapeCast_a_1a_apply _ _ 0 e

/-- A class column of the side-by-side weights is `wc`'s. -/
theorem wcr_cls_at (k : Fin 1024) (j : Fin 11) :
    V m c main_v6 (ix2 k (⟨j.val, by have := j.isLt; omega⟩ : Fin 16)) = m ((c : Thread nD τ).loc main_arg6) (ix2 k j) := by
  rw [wcr_term]
  exact Cert.LibConcat2.last2_left _ _ concatenates_S1024x11_S1024x5_S1024x16_d1 k (⟨j.val, by have := j.isLt; omega⟩ : Fin 16) j.isLt

/-- A box column of the side-by-side weights is `wr`'s. -/
theorem wcr_reg_at (k : Fin 1024) (q : Fin 5) :
    V m c main_v6 (ix2 k (⟨11 + q.val, by have := q.isLt; omega⟩ : Fin 16)) = m ((c : Thread nD τ).loc main_arg8) (ix2 k q) := by
  rw [wcr_term]
  have hq : q.val < 5 := q.isLt
  refine (Cert.LibConcat2.last2_right _ _ concatenates_S1024x11_S1024x5_S1024x16_d1 k (⟨11 + q.val, by omega⟩ : Fin 16)
    (by show 11 ≤ 11 + q.val; omega) (by show 11 + q.val - 11 < 5; omega)).trans ?_
  refine congrArg (fun z : Fin 5 => m ((c : Thread nD τ).loc main_arg8) (ix2 k z)) (Fin.ext ?_)
  show 11 + q.val - 11 = q.val
  omega

/-- A class entry of the end-to-end biases is `bc`'s. -/
theorem bcr_cls_at (j : Fin 11) :
    V m c main_v8 (ix2 (0 : Fin 1) (⟨j.val, by have := j.isLt; omega⟩ : Fin 16)) = m ((c : Thread nD τ).loc main_arg7) (ix1 j) := by
  rw [bcr_term]
  refine (shapeCast_a_1a_apply _ shapeCasts_S16_S1x16 0 (⟨j.val, by have := j.isLt; omega⟩ : Fin 16)).trans ?_
  exact Cert.LibConcat1.vec_left _ _ concatenates_S11_S5_S16_d0 (⟨j.val, by have := j.isLt; omega⟩ : Fin 16) j.isLt

/-- A box entry of the end-to-end biases is `br`'s. -/
theorem bcr_reg_at (q : Fin 5) :
    V m c main_v8 (ix2 (0 : Fin 1) (⟨11 + q.val, by have := q.isLt; omega⟩ : Fin 16)) = m ((c : Thread nD τ).loc main_arg9) (ix1 q) := by
  rw [bcr_term]
  have hq : q.val < 5 := q.isLt
  refine (shapeCast_a_1a_apply _ shapeCasts_S16_S1x16 0 (⟨11 + q.val, by omega⟩ : Fin 16)).trans ?_
  refine (Cert.LibConcat1.vec_right _ _ concatenates_S11_S5_S16_d0 (⟨11 + q.val, by omega⟩ : Fin 16)
    (by show 11 ≤ 11 + q.val; omega) (by show 11 + q.val - 11 < 5; omega)).trans ?_
  refine congrArg (fun z : Fin 5 => m ((c : Thread nD τ).loc main_arg9) (ix1 z)) (Fin.ext ?_)
  show 11 + q.val - 11 = q.val
  omega

end Cert.EntryValue

end
-- ==== Proof.BlockValue.lean ====
/-
  What the kernel's body computes on one block of 200 tokens, index by index, over the extended reals.

  The body multiplies the block's feature rows `[200, 12544]` by `w1`, adds the bias row `b1` to every row, takes the
  maximum with zero; multiplies by `w2`, adds `b2`, takes the maximum with zero; multiplies by a sixteen-column matrix
  and adds a sixteen-entry bias row. Each matrix product into a zero accumulator is, at `(p, e)`, the plain sum over the
  contracted coordinate of the two operands' products; a one-row bias broadcast down the block reads, at `(p, e)`, the
  row's entry `e`; the roundings to the narrower format between the layers change nothing here. So row `p` of the
  sixteen-column value is the specification's `head` of row `p` of the features. The class scores stored are its
  columns 0 to 10, the box regression its columns 11 to 15, added to the block's boxes.
-/
import proofs.«128121_j1906965480114_2_alg».proof.Proof.Gen.KernelIdeal.Skeleton
import proofs.«128121_j1906965480114_2_alg».proof.Proof.HeadSpec
import Idealize.ShloMosaic.PureOps.Ideal.Laws
import Idealize.ShloMosaic.Lib.ValueIdx
import Idealize.ShloMosaic.Lib.ValueLayout
import Idealize.ShloMosaic.Lib.Pipeline.Value

noncomputable section

namespace Cert.BlockValue

open Cert.KernelIdeal Cert.KernelIdeal.Gen Cert.HeadSpec Idealize.ShloMosaic Idealize.ShloMosaic.ValueIdx

/-- The matrix product `[200, 12544] · [12544, 1024]`'s dimension record. -/
abbrev D1 := dot_S200x12544_S12544x1024_S200x1024_1_0_0_1_n_n

theorem D1_lhs0 (i : S200x1024.Idx) (q : D1.contr.Idx) : (D1.lhsIdx i q 0).val = (i 0).val := by
  unfold DotDims.lhsIdx
  rw [dif_neg (show ¬(0 : Fin S200x12544.rank) ∈ D1.lhsBatch by decide), dif_pos (show (0 : Fin S200x12544.rank) ∈ D1.lhsNonContracting by decide)]
  rfl
theorem D1_lhs1 (i : S200x1024.Idx) (q : D1.contr.Idx) : (D1.lhsIdx i q 1).val = (q ⟨0, by decide⟩).val :=
  D1.lhsIdx_val_of_single rfl i q
theorem D1_rhs0 (i : S200x1024.Idx) (q : D1.contr.Idx) : (D1.rhsIdx i q 0).val = (q ⟨0, by decide⟩).val :=
  D1.rhsIdx_val_of_single rfl i q
theorem D1_rhs1 (i : S200x1024.Idx) (q : D1.contr.Idx) : (D1.rhsIdx i q 1).val = (i 1).val := by
  unfold DotDims.rhsIdx
  rw [dif_neg (show ¬(1 : Fin S12544x1024.rank) ∈ D1.rhsBatch by decide), dif_pos (show (1 : Fin S12544x1024.rank) ∈ D1.rhsNonContracting by decide)]
  rfl

/-- Into a zero accumulator the product at `(p, e)` is the sum over `k` of `l (p, k) · r (k, e)`. -/
theorem D1_apply (l : FVec Ideal S200x12544 .bf16) (r : FVec Ideal S12544x1024 .bf16) (p : Fin 200) (e : Fin 1024) :
    matmul D1 none l r (constant S200x1024 .f32 0x00000000#32) (ix2 p e) = ∑ k : Fin 12544, l (ix2 p k) * r (ix2 k e) := by
  simp only [matmul]
  rw [Ideal.matmul_constant_zero_apply, ← Equiv.sum_comp (contrEquiv1 D1 12544 rfl rfl).symm]
  refine Finset.sum_congr rfl fun k _ => ?_
  have hk := contrEquiv1_symm_val D1 12544 rfl rfl k
  have el : D1.lhsIdx (ix2 p e) ((contrEquiv1 D1 12544 rfl rfl).symm k) = ix2 p k := funext fun a => Fin.ext (by
    match a with
    | ⟨0, _⟩ => exact D1_lhs0 _ _
    | ⟨1, _⟩ => exact (D1_lhs1 _ _).trans hk)
  have er : D1.rhsIdx (ix2 p e) ((contrEquiv1 D1 12544 rfl rfl).symm k) = ix2 k e := funext fun a => Fin.ext (by
    match a with
    | ⟨0, _⟩ => exact (D1_rhs0 _ _).trans hk
    | ⟨1, _⟩ => exact D1_rhs1 _ _)
  rw [el, er]

/-- The matrix product `[200, 1024] · [1024, 1024]`'s dimension record. -/
abbrev D2 := dot_S200x1024_S1024x1024_S200x1024_1_0_0_1_n_n

theorem D2_lhs0 (i : S200x1024.Idx) (q : D2.contr.Idx) : (D2.lhsIdx i q 0).val = (i 0).val := by
  unfold DotDims.lhsIdx
  rw [dif_neg (show ¬(0 : Fin S200x1024.rank) ∈ D2.lhsBatch by decide), dif_pos (show (0 : Fin S200x1024.rank) ∈ D2.lhsNonContracting by decide)]
  rfl
theorem D2_lhs1 (i : S200x1024.Idx) (q : D2.contr.Idx) : (D2.lhsIdx i q 1).val = (q ⟨0, by decide⟩).val :=
  D2.lhsIdx_val_of_single rfl i q
theorem D2_rhs0 (i : S200x1024.Idx) (q : D2.contr.Idx) : (D2.rhsIdx i q 0).val = (q ⟨0, by decide⟩).val :=
  D2.rhsIdx_val_of_single rfl i q
theorem D2_rhs1 (i : S200x1024.Idx) (q : D2.contr.Idx) : (D2.rhsIdx i q 1).val = (i 1).val := by
  unfold DotDims.rhsIdx
  rw [dif_neg (show ¬(1 : Fin S1024x1024.rank) ∈ D2.rhsBatch by decide), dif_pos (show (1 : Fin S1024x1024.rank) ∈ D2.rhsNonContracting by decide)]
  rfl

/-- Into a zero accumulator the product at `(p, e)` is the sum over `k` of `l (p, k) · r (k, e)`. -/
theorem D2_apply (l : FVec Ideal S200x1024 .bf16) (r : FVec Ideal S1024x1024 .bf16) (p : Fin 200) (e : Fin 1024) :
    matmul D2 none l r (constant S200x1024 .f32 0x00000000#32) (ix2 p e) = ∑ k : Fin 1024, l (ix2 p k) * r (ix2 k e) := by
  simp only [matmul]
  rw [Ideal.matmul_constant_zero_apply, ← Equiv.sum_comp (contrEquiv1 D2 1024 rfl rfl).symm]
  refine Finset.sum_congr rfl fun k _ => ?_
  have hk := contrEquiv1_symm_val D2 1024 rfl rfl k
  have el : D2.lhsIdx (ix2 p e) ((contrEquiv1 D2 1024 rfl rfl).symm k) = ix2 p k := funext fun a => Fin.ext (by
    match a with
    | ⟨0, _⟩ => exact D2_lhs0 _ _
    | ⟨1, _⟩ => exact (D2_lhs1 _ _).trans hk)
  have er : D2.rhsIdx (ix2 p e) ((contrEquiv1 D2 1024 rfl rfl).symm k) = ix2 k e := funext fun a => Fin.ext (by
    match a with
    | ⟨0, _⟩ => exact (D2_rhs0 _ _).trans hk
    | ⟨1, _⟩ => exact D2_rhs1 _ _)
  rw [el, er]

/-- The matrix product `[200, 1024] · [1024, 16]`'s dimension record. -/
abbrev D3 := dot_S200x1024_S1024x16_S200x16_1_0_0_1_n_n

theorem D3_lhs0 (i : S200x16.Idx) (q : D3.contr.Idx) : (D3.lhsIdx i q 0).val = (i 0).val := by
  unfold DotDims.lhsIdx
  rw [dif_neg (show ¬(0 : Fin S200x1024.rank) ∈ D3.lhsBatch by decide), dif_pos (show (0 : Fin S200x1024.rank) ∈ D3.lhsNonContracting by decide)]
  rfl
theorem D3_lhs1 (i : S200x16.Idx) (q : D3.contr.Idx) : (D3.lhsIdx i q 1).val = (q ⟨0, by decide⟩).val :=
  D3.lhsIdx_val_of_single rfl i q
theorem D3_rhs0 (i : S200x16.Idx) (q : D3.contr.Idx) : (D3.rhsIdx i q 0).val = (q ⟨0, by decide⟩).val :=
  D3.rhsIdx_val_of_single rfl i q
theorem D3_rhs1 (i : S200x16.Idx) (q : D3.contr.Idx) : (D3.rhsIdx i q 1).val = (i 1).val := by
  unfold DotDims.rhsIdx
  rw [dif_neg (show ¬(1 : Fin S1024x16.rank) ∈ D3.rhsBatch by decide), dif_pos (show (1 : Fin S1024x16.rank) ∈ D3.rhsNonContracting by decide)]
  rfl

/-- Into a zero accumulator the product at `(p, e)` is the sum over `k` of `l (p, k) · r (k, e)`. -/
theorem D3_apply (l : FVec Ideal S200x1024 .bf16) (r : FVec Ideal S1024x16 .bf16) (p : Fin 200) (e : Fin 16) :
    matmul D3 none l r (constant S200x16 .f32 0x00000000#32) (ix2 p e) = ∑ k : Fin 1024, l (ix2 p k) * r (ix2 k e) := by
  simp only [matmul]
  rw [Ideal.matmul_constant_zero_apply, ← Equiv.sum_comp (contrEquiv1 D3 1024 rfl rfl).symm]
  refine Finset.sum_congr rfl fun k _ => ?_
  have hk := contrEquiv1_symm_val D3 1024 rfl rfl k
  have el : D3.lhsIdx (ix2 p e) ((contrEquiv1 D3 1024 rfl rfl).symm k) = ix2 p k := funext fun a => Fin.ext (by
    match a with
    | ⟨0, _⟩ => exact D3_lhs0 _ _
    | ⟨1, _⟩ => exact (D3_lhs1 _ _).trans hk)
  have er : D3.rhsIdx (ix2 p e) ((contrEquiv1 D3 1024 rfl rfl).symm k) = ix2 k e := funext fun a => Fin.ext (by
    match a with
    | ⟨0, _⟩ => exact (D3_rhs0 _ _).trans hk
    | ⟨1, _⟩ => exact D3_rhs1 _ _)
  rw [el, er]

/-! ## The layers, on any operands -/

/-- A dense layer of the block with the positive part, rounded for the next product (no change over the extended
    reals): row `p`, unit `e`. -/
theorem layer1 (l : FVec Ideal S200x12544 .bf16) (r : FVec Ideal S12544x1024 .bf16) (bv : FVec Ideal S1x1024 .f32) (p : Fin 200) (e : Fin 1024) :
    (truncf .bf16 (maximumf (addf (matmul D1 none l r (constant S200x1024 .f32 0x00000000#32))
        (broadcastTo S200x1024 bv broadcasts_S1x1024_S200x1024)) (broadcast S200x1024 (Scalar.ofBits (F := Ideal) .f32 0x00000000#32))) bitsLt_bf16_f32 : FVec Ideal S200x1024 .bf16) (ix2 p e)
      = hidden (fun d => l (ix2 p d)) (fun d e => r (ix2 d e)) (fun e => bv (ix2 (0 : Fin 1) e)) e := by
  show max (matmul D1 none l r (constant S200x1024 .f32 0x00000000#32) (ix2 p e)
      + broadcastTo S200x1024 bv broadcasts_S1x1024_S200x1024 (ix2 p e)) (Ideal.ofBits .f32 0x00000000#32) = _
  rw [D1_apply, broadcastTo_1b_ab_apply, Ideal.ofBits_zero_f32]
  rfl

theorem layer2 (l : FVec Ideal S200x1024 .bf16) (r : FVec Ideal S1024x1024 .bf16) (bv : FVec Ideal S1x1024 .f32) (p : Fin 200) (e : Fin 1024) :
    (truncf .bf16 (maximumf (addf (matmul D2 none l r (constant S200x1024 .f32 0x00000000#32))
        (broadcastTo S200x1024 bv broadcasts_S1x1024_S200x1024)) (broadcast S200x1024 (Scalar.ofBits (F := Ideal) .f32 0x00000000#32))) bitsLt_bf16_f32 : FVec Ideal S200x1024 .bf16) (ix2 p e)
      = hidden (fun d => l (ix2 p d)) (fun d e => r (ix2 d e)) (fun e => bv (ix2 (0 : Fin 1) e)) e := by
  show max (matmul D2 none l r (constant S200x1024 .f32 0x00000000#32) (ix2 p e)
      + broadcastTo S200x1024 bv broadcasts_S1x1024_S200x1024 (ix2 p e)) (Ideal.ofBits .f32 0x00000000#32) = _
  rw [D2_apply, broadcastTo_1b_ab_apply, Ideal.ofBits_zero_f32]
  rfl

/-- The affine head of the block: row `p`, column `c` of the sixteen. -/
theorem layer3 (l : FVec Ideal S200x1024 .bf16) (r : FVec Ideal S1024x16 .bf16) (bv : FVec Ideal S1x16 .f32) (p : Fin 200) (c : Fin 16) :
    (addf (matmul D3 none l r (constant S200x16 .f32 0x00000000#32)) (broadcastTo S200x16 bv broadcasts_S1x16_S200x16) : FVec Ideal S200x16 .f32) (ix2 p c)
      = affine (fun k => l (ix2 p k)) (fun k c => r (ix2 k c)) (fun c => bv (ix2 (0 : Fin 1) c)) c := by
  show matmul D3 none l r (constant S200x16 .f32 0x00000000#32) (ix2 p c) + broadcastTo S200x16 bv broadcasts_S1x16_S200x16 (ix2 p c) = _
  rw [D3_apply, broadcastTo_1b_ab_apply]
  rfl

/-! ## The body's payloads at an index -/

variable (x0 : FVec Ideal S200x12544 .bf16) (x2 : FVec Ideal S12544x1024 .bf16) (x3 : FVec Ideal S1x1024 .f32)
  (x4 : FVec Ideal S1024x1024 .bf16) (x5 : FVec Ideal S1x1024 .f32) (x6 : FVec Ideal S1024x16 .bf16) (x7 : FVec Ideal S1x16 .f32)
  (x1 : FVec Ideal S200x5 .f32)

/-- The head of the block's row `p` with the sixteen-column weights and bias the body loads. -/
def rowHead (p : Fin 200) : Fin 16 → EReal :=
  head (fun d => x0 (ix2 p d)) (fun d e => x2 (ix2 d e)) (fun e => x3 (ix2 (0 : Fin 1) e)) (fun k e => x4 (ix2 k e))
    (fun e => x5 (ix2 (0 : Fin 1) e)) (fun k c => x6 (ix2 k c)) (fun c => x7 (ix2 (0 : Fin 1) c))

/-- The body's sixteen-column value at row `p`, column `c`. -/
theorem pay1_apply (p : Fin 200) (c : Fin 16) : k0_pay1 (F := Ideal) x0 x2 x3 x4 x5 x6 x7 (ix2 p c) = rowHead x0 x2 x3 x4 x5 x6 x7 p c := by
  unfold k0_pay1
  simp only [shapeCast_self]
  refine (layer3 _ _ _ p c).trans ?_
  unfold rowHead head
  refine congrArg (fun h => affine h (fun k c => x6 (ix2 k c)) (fun c => x7 (ix2 (0 : Fin 1) c)) c) (funext fun k => ?_)
  refine (layer2 _ _ _ p k).trans ?_
  refine congrArg (fun h => hidden h (fun k e => x4 (ix2 k e)) (fun e => x5 (ix2 (0 : Fin 1) e)) k) (funext fun k' => ?_)
  exact layer1 _ _ _ p k'

/-- The class scores the body stores: columns 0 to 10 of the sixteen. -/
theorem pay2_apply (p : Fin 200) (j : Fin 11) :
    k0_pay2 (F := Ideal) x0 x2 x3 x4 x5 x6 x7 (ix2 p j) = rowHead x0 x2 x3 x4 x5 x6 x7 p ⟨j.val, by have := j.isLt; omega⟩ := by
  unfold k0_pay2
  refine (slice2_axis1_apply 0 (k0_pay1 (F := Ideal) x0 x2 x3 x4 x5 x6 x7) slices_S200x16_o0_0_S200x11 p j ⟨j.val, by have := j.isLt; omega⟩ (Nat.zero_add _).symm).trans ?_
  exact pay1_apply x0 x2 x3 x4 x5 x6 x7 p _

/-- The boxes the body stores: the block's box plus columns 11 to 15 of the sixteen. -/
theorem pay3_apply (p : Fin 200) (q : Fin 5) :
    k0_pay3 (F := Ideal) x0 x2 x3 x4 x5 x6 x7 x1 (ix2 p q) = x1 (ix2 p q) + rowHead x0 x2 x3 x4 x5 x6 x7 p ⟨11 + q.val, by have := q.isLt; omega⟩ := by
  unfold k0_pay3
  simp only [shapeCast_self]
  show x1 (ix2 p q) + extractStridedSlice S200x5 ![0, 11] (k0_pay1 (F := Ideal) x0 x2 x3 x4 x5 x6 x7) slices_S200x16_o0_11_S200x5 (ix2 p q) = _
  refine congrArg (x1 (ix2 p q) + ·) ?_
  refine (slice2_axis1_apply 11 (k0_pay1 (F := Ideal) x0 x2 x3 x4 x5 x6 x7) slices_S200x16_o0_11_S200x5 p q ⟨11 + q.val, by have := q.isLt; omega⟩ rfl).trans ?_
  exact pay1_apply x0 x2 x3 x4 x5 x6 x7 p _

end Cert.BlockValue

end
-- ==== Proof.ArrayValue.lean ====
/-
  The two arrays the region leaves, as functions of the argument arrays.

  The grid has twenty points; at point `t` the feature, box, class-score and refined-box windows hold rows `200 t` to
  `200 t + 199` of their arrays, and every other window holds its whole array. So row `p` of the block at point `t` is
  token `200 t + p`: the body's sixteen-column head of that row (the block payloads) is the specification's head of the
  token's features, whose first 11 columns use the class weights and bias and whose last 5 the box weights and bias (a
  column of an affine map depends on that column of the weights only). Every row `r` of an output array lies in the
  block of point `r / 200`, so after the last point each output array is that function at every index.
-/
import proofs.«128121_j1906965480114_2_alg».proof.Proof.Gen.KernelIdeal.Frame
import proofs.«128121_j1906965480114_2_alg».proof.Proof.HeadSpec
import proofs.«128121_j1906965480114_2_alg».proof.Proof.BlockValue
import proofs.«128121_j1906965480114_2_alg».proof.Proof.EntryValue
import Idealize.ShloMosaic.Lib.Pipeline.Value
import Idealize.ShloMosaic.Lib.ValueIdx

noncomputable section

namespace Cert.ArrayValue

open Cert.KernelIdeal Cert.KernelIdeal.Gen Cert.HeadSpec Cert.BlockValue Cert.EntryValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

theorem hz : (![0, 0] : Fin 2 → Nat) = fun _ => 0 := funext fun a => by fin_cases a <;> rfl

/-! ## The index maps, decided over the twenty grid points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- The token whose features are row `p` of the block at point `t`. -/
def row (t : Fin cfg0.N) (p : Fin 200) : Fin 4000 :=
  ⟨t.val * 200 + p.val, by have ht : t.val < 20 := lt_of_lt_of_eq t.isLt N_0; have := p.isLt; omega⟩

/-! ## Each window's block read in its array -/

/-- Window 0's block at point `t` is rows `200 t` to `200 t + 199` of its array. -/
theorem in0 (t : Fin cfg0.N) (p : Fin 200) (d : Fin 12544) : iblk m c 0 t (ix2 p d) = V m c main_v1 (ix2 (row t p) d) := by
  obtain ⟨e0, e1⟩ := idx0 t
  have h : ((cfg0.win 0).blk t).view.emb (ix2 p d) = ix2 (row t p) d := by
    funext ax; apply Fin.ext
    match ax with
    | ⟨0, _⟩ => show win0_0.index t (0 : Fin 2) * 200 + 1 * p.val = t.val * 200 + p.val; omega
    | ⟨1, _⟩ => show win0_0.index t (1 : Fin 2) * 12544 + 1 * d.val = d.val; omega
  show V m c main_v1 (((cfg0.win 0).blk t).view.emb (ix2 p d)) = _
  rw [h]

/-- Window 1's block at point `t` is rows `200 t` to `200 t + 199` of its array. -/
theorem in1 (t : Fin cfg0.N) (p : Fin 200) (q : Fin 5) : iblk m c 1 t (ix2 p q) = V m c main_v2 (ix2 (row t p) q) := by
  obtain ⟨e0, e1⟩ := idx1 t
  have h : ((cfg0.win 1).blk t).view.emb (ix2 p q) = ix2 (row t p) q := by
    funext ax; apply Fin.ext
    match ax with
    | ⟨0, _⟩ => show win0_1.index t (0 : Fin 2) * 200 + 1 * p.val = t.val * 200 + p.val; omega
    | ⟨1, _⟩ => show win0_1.index t (1 : Fin 2) * 5 + 1 * q.val = q.val; omega
  show V m c main_v2 (((cfg0.win 1).blk t).view.emb (ix2 p q)) = _
  rw [h]

/-- Window 2's block is its whole array at every point. -/
theorem in2 (t : Fin cfg0.N) (d : Fin 12544) (e : Fin 1024) : iblk m c 2 t (ix2 d e) = V m c main_v3 (ix2 d e) := by
  obtain ⟨e0, e1⟩ := idx2 t
  have h : ((cfg0.win 2).blk t).view.emb (ix2 d e) = ix2 d e := by
    funext ax; apply Fin.ext
    match ax with
    | ⟨0, _⟩ => show win0_2.index t (0 : Fin 2) * 12544 + 1 * d.val = d.val; omega
    | ⟨1, _⟩ => show win0_2.index t (1 : Fin 2) * 1024 + 1 * e.val = e.val; omega
  show V m c main_v3 (((cfg0.win 2).blk t).view.emb (ix2 d e)) = _
  rw [h]

/-- Window 3's block is its whole array at every point. -/
theorem in3 (t : Fin cfg0.N) (u : Fin 1) (e : Fin 1024) : iblk m c 3 t (ix2 u e) = V m c main_v9 (ix2 u e) := by
  obtain ⟨e0, e1⟩ := idx3 t
  have h : ((cfg0.win 3).blk t).view.emb (ix2 u e) = ix2 u e := by
    funext ax; apply Fin.ext
    match ax with
    | ⟨0, _⟩ => show win0_3.index t (0 : Fin 2) * 1 + 1 * u.val = u.val; omega
    | ⟨1, _⟩ => show win0_3.index t (1 : Fin 2) * 1024 + 1 * e.val = e.val; omega
  show V m c main_v9 (((cfg0.win 3).blk t).view.emb (ix2 u e)) = _
  rw [h]

/-- Window 4's block is its whole array at every point. -/
theorem in4 (t : Fin cfg0.N) (k : Fin 1024) (e : Fin 1024) : iblk m c 4 t (ix2 k e) = V m c main_v4 (ix2 k e) := by
  obtain ⟨e0, e1⟩ := idx4 t
  have h : ((cfg0.win 4).blk t).view.emb (ix2 k e) = ix2 k e := by
    funext ax; apply Fin.ext
    match ax with
    | ⟨0, _⟩ => show win0_4.index t (0 : Fin 2) * 1024 + 1 * k.val = k.val; omega
    | ⟨1, _⟩ => show win0_4.index t (1 : Fin 2) * 1024 + 1 * e.val = e.val; omega
  show V m c main_v4 (((cfg0.win 4).blk t).view.emb (ix2 k e)) = _
  rw [h]

/-- Window 5's block is its whole array at every point. -/
theorem in5 (t : Fin cfg0.N) (u : Fin 1) (e : Fin 1024) : iblk m c 5 t (ix2 u e) = V m c main_v10 (ix2 u e) := by
  obtain ⟨e0, e1⟩ := idx5 t
  have h : ((cfg0.win 5).blk t).view.emb (ix2 u e) = ix2 u e := by
    funext ax; apply Fin.ext
    match ax with
    | ⟨0, _⟩ => show win0_5.index t (0 : Fin 2) * 1 + 1 * u.val = u.val; omega
    | ⟨1, _⟩ => show win0_5.index t (1 : Fin 2) * 1024 + 1 * e.val = e.val; omega
  show V m c main_v10 (((cfg0.win 5).blk t).view.emb (ix2 u e)) = _
  rw [h]

/-- Window 6's block is its whole array at every point. -/
theorem in6 (t : Fin cfg0.N) (k : Fin 1024) (cc : Fin 16) : iblk m c 6 t (ix2 k cc) = V m c main_v6 (ix2 k cc) := by
  obtain ⟨e0, e1⟩ := idx6 t
  have h : ((cfg0.win 6).blk t).view.emb (ix2 k cc) = ix2 k cc := by
    funext ax; apply Fin.ext
    match ax with
    | ⟨0, _⟩ => show win0_6.index t (0 : Fin 2) * 1024 + 1 * k.val = k.val; omega
    | ⟨1, _⟩ => show win0_6.index t (1 : Fin 2) * 16 + 1 * cc.val = cc.val; omega
  show V m c main_v6 (((cfg0.win 6).blk t).view.emb (ix2 k cc)) = _
  rw [h]

/-- Window 7's block is its whole array at every point. -/
theorem in7 (t : Fin cfg0.N) (u : Fin 1) (cc : Fin 16) : iblk m c 7 t (ix2 u cc) = V m c main_v8 (ix2 u cc) := by
  obtain ⟨e0, e1⟩ := idx7 t
  have h : ((cfg0.win 7).blk t).view.emb (ix2 u cc) = ix2 u cc := by
    funext ax; apply Fin.ext
    match ax with
    | ⟨0, _⟩ => show win0_7.index t (0 : Fin 2) * 1 + 1 * u.val = u.val; omega
    | ⟨1, _⟩ => show win0_7.index t (1 : Fin 2) * 16 + 1 * cc.val = cc.val; omega
  show V m c main_v8 (((cfg0.win 7).blk t).view.emb (ix2 u cc)) = _
  rw [h]

/-- Output window 8's block at point `t` is rows `200 t` to `200 t + 199` of its array. -/
theorem out8 (t : Fin cfg0.N) (p : Fin 200) (j : Fin 11) : ((cfg0.win 8).blk t).view.emb (ix2 p j) = ix2 (row t p) j := by
  obtain ⟨e0, e1⟩ := idx8 t
  funext ax; apply Fin.ext
  match ax with
  | ⟨0, _⟩ => show win0_8.index t (0 : Fin 2) * 200 + 1 * p.val = t.val * 200 + p.val; omega
  | ⟨1, _⟩ => show win0_8.index t (1 : Fin 2) * 11 + 1 * j.val = j.val; omega

/-- Output window 9's block at point `t` is rows `200 t` to `200 t + 199` of its array. -/
theorem out9 (t : Fin cfg0.N) (p : Fin 200) (q : Fin 5) : ((cfg0.win 9).blk t).view.emb (ix2 p q) = ix2 (row t p) q := by
  obtain ⟨e0, e1⟩ := idx9 t
  funext ax; apply Fin.ext
  match ax with
  | ⟨0, _⟩ => show win0_9.index t (0 : Fin 2) * 200 + 1 * p.val = t.val * 200 + p.val; omega
  | ⟨1, _⟩ => show win0_9.index t (1 : Fin 2) * 5 + 1 * q.val = q.val; omega

/-! ## The two output arrays as functions of the arguments -/

/-- Token `r`'s class scores. -/
def clsArr : S4000x11.Idx → EReal :=
  fun i => tokenHead (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1)

/-- The boxes as the region finds them, one row per token. -/
abbrev box2d : S4000x5.Idx → EReal := V m c main_v2

/-- Token `r`'s box plus its regression. -/
def boxArr : S4000x5.Idx → EReal :=
  fun i => box2d m c i + tokenHead (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (i 0) (i 1)

/-- What point `t` writes back to the class scores is block `t` of `clsArr`. -/
theorem flushed8_eq (t : Fin cfg0.N) :
    (dats m 0 c).flushed 8 t = ((cfg0.win 8).blk t).view.read (Elt Ideal) (clsArr m c) := by
  show (cfg0.win 8).cut (grid0.coords t) ((dats m 0 c).after 8 t) = _
  rw [after0_8]
  unfold out0_8
  rw [View.canon_unit_zero hz]
  simp only [View.ld_unit_zero (S := S200x12544) hz, View.ld_unit_zero (S := S12544x1024) hz, View.ld_unit_zero (S := S1x1024) hz,
    View.ld_unit_zero (S := S1024x1024) hz, View.ld_unit_zero (S := S1024x16) hz, View.ld_unit_zero (S := S1x16) hz, View.ld_unit_zero (S := S200x5) hz]
  funext y
  obtain ⟨p, j, rfl⟩ : ∃ (p : Fin 200) (j : Fin 11), y = ix2 p j := ⟨y 0, y 1, eq_ix2 y⟩
  show k0_pay2 (F := Ideal) (iblk m c 0 t) (iblk m c 2 t) (iblk m c 3 t) (iblk m c 4 t) (iblk m c 5 t) (iblk m c 6 t) (iblk m c 7 t) (ix2 p j) = clsArr m c (((cfg0.win 8).blk t).view.emb (ix2 p j))
  rw [out8 t p j]
  refine (pay2_apply (iblk m c 0 t) (iblk m c 2 t) (iblk m c 3 t) (iblk m c 4 t) (iblk m c 5 t) (iblk m c 6 t) (iblk m c 7 t) p j).trans ?_
  show rowHead (iblk m c 0 t) (iblk m c 2 t) (iblk m c 3 t) (iblk m c 4 t) (iblk m c 5 t) (iblk m c 6 t) (iblk m c 7 t) p ⟨j.val, _⟩
    = tokenHead (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row t p) j
  unfold rowHead tokenHead
  have hx : (fun d : Fin 12544 => iblk m c 0 t (ix2 p d)) = fun d => m ((c : Thread nD τ).loc main_arg0) (featIdx (row t p) d) :=
    funext fun d => (in0 m c t p d).trans (feat_at m c (row t p) d)
  have hw1 : (fun (d : Fin 12544) (e : Fin 1024) => iblk m c 2 t (ix2 d e)) = fun d e => m ((c : Thread nD τ).loc main_arg2) (ix2 d e) :=
    funext fun d => funext fun e => (in2 m c t d e).trans (w1_at m c d e)
  have hb1 : (fun e : Fin 1024 => iblk m c 3 t (ix2 (0 : Fin 1) e)) = fun e => m ((c : Thread nD τ).loc main_arg3) (ix1 e) :=
    funext fun e => (in3 m c t 0 e).trans (b1_at m c e)
  have hw2 : (fun (k : Fin 1024) (e : Fin 1024) => iblk m c 4 t (ix2 k e)) = fun k e => m ((c : Thread nD τ).loc main_arg4) (ix2 k e) :=
    funext fun k => funext fun e => (in4 m c t k e).trans (w2_at m c k e)
  have hb2 : (fun e : Fin 1024 => iblk m c 5 t (ix2 (0 : Fin 1) e)) = fun e => m ((c : Thread nD τ).loc main_arg5) (ix1 e) :=
    funext fun e => (in5 m c t 0 e).trans (b2_at m c e)
  rw [hx, hw1, hb1, hw2, hb2]
  exact head_col _ _ _ _ _ _ _ _ _ _ _ (fun k => (in6 m c t k _).trans (wcr_cls_at m c k j)) ((in7 m c t 0 _).trans (bcr_cls_at m c j))

/-- What point `t` writes back to the boxes is block `t` of `boxArr`. -/
theorem flushed9_eq (t : Fin cfg0.N) :
    (dats m 0 c).flushed 9 t = ((cfg0.win 9).blk t).view.read (Elt Ideal) (boxArr m c) := by
  show (cfg0.win 9).cut (grid0.coords t) ((dats m 0 c).after 9 t) = _
  rw [after0_9]
  unfold out0_9
  rw [View.canon_unit_zero hz]
  simp only [View.ld_unit_zero (S := S200x12544) hz, View.ld_unit_zero (S := S12544x1024) hz, View.ld_unit_zero (S := S1x1024) hz,
    View.ld_unit_zero (S := S1024x1024) hz, View.ld_unit_zero (S := S1024x16) hz, View.ld_unit_zero (S := S1x16) hz, View.ld_unit_zero (S := S200x5) hz]
  funext y
  obtain ⟨p, q, rfl⟩ : ∃ (p : Fin 200) (q : Fin 5), y = ix2 p q := ⟨y 0, y 1, eq_ix2 y⟩
  show k0_pay3 (F := Ideal) (iblk m c 0 t) (iblk m c 2 t) (iblk m c 3 t) (iblk m c 4 t) (iblk m c 5 t) (iblk m c 6 t) (iblk m c 7 t) (iblk m c 1 t) (ix2 p q) = boxArr m c (((cfg0.win 9).blk t).view.emb (ix2 p q))
  rw [out9 t p q]
  refine (pay3_apply (iblk m c 0 t) (iblk m c 2 t) (iblk m c 3 t) (iblk m c 4 t) (iblk m c 5 t) (iblk m c 6 t) (iblk m c 7 t) (iblk m c 1 t) p q).trans ?_
  rw [in1 m c t p q]
  show box2d m c (ix2 (row t p) q) + rowHead (iblk m c 0 t) (iblk m c 2 t) (iblk m c 3 t) (iblk m c 4 t) (iblk m c 5 t) (iblk m c 6 t) (iblk m c 7 t) p ⟨11 + q.val, _⟩
    = box2d m c (ix2 (row t p) q) + tokenHead (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (row t p) q
  refine congrArg (box2d m c (ix2 (row t p) q) + ·) ?_
  unfold rowHead tokenHead
  have hx : (fun d : Fin 12544 => iblk m c 0 t (ix2 p d)) = fun d => m ((c : Thread nD τ).loc main_arg0) (featIdx (row t p) d) :=
    funext fun d => (in0 m c t p d).trans (feat_at m c (row t p) d)
  have hw1 : (fun (d : Fin 12544) (e : Fin 1024) => iblk m c 2 t (ix2 d e)) = fun d e => m ((c : Thread nD τ).loc main_arg2) (ix2 d e) :=
    funext fun d => funext fun e => (in2 m c t d e).trans (w1_at m c d e)
  have hb1 : (fun e : Fin 1024 => iblk m c 3 t (ix2 (0 : Fin 1) e)) = fun e => m ((c : Thread nD τ).loc main_arg3) (ix1 e) :=
    funext fun e => (in3 m c t 0 e).trans (b1_at m c e)
  have hw2 : (fun (k : Fin 1024) (e : Fin 1024) => iblk m c 4 t (ix2 k e)) = fun k e => m ((c : Thread nD τ).loc main_arg4) (ix2 k e) :=
    funext fun k => funext fun e => (in4 m c t k e).trans (w2_at m c k e)
  have hb2 : (fun e : Fin 1024 => iblk m c 5 t (ix2 (0 : Fin 1) e)) = fun e => m ((c : Thread nD τ).loc main_arg5) (ix1 e) :=
    funext fun e => (in5 m c t 0 e).trans (b2_at m c e)
  rw [hx, hw1, hb1, hw2, hb2]
  exact head_col _ _ _ _ _ _ _ _ _ _ _ (fun k => (in6 m c t k _).trans (wcr_reg_at m c k q)) ((in7 m c t 0 _).trans (bcr_reg_at m c q))

/-! ## The blocks cover the arrays -/

theorem mem_blk8 (t : Fin cfg0.N) (i : S4000x11.Idx) :
    i ∈ ((cfg0.win 8).blk t).view.set ↔ ∀ a : Fin 2, win0_8.index t a * S200x11.size a ≤ (i a).val ∧ (i a).val < win0_8.index t a * S200x11.size a + S200x11.size a := by
  show i ∈ ((View.whole main_v11_0).slice (win0_8.rect t)).set ↔ _
  rw [View.set_slice_whole, Rect.mem_set_unit]
  exact Iff.rfl

/-- Every row of the array is in the block of the point `row / 200`. -/
theorem cover8 (i : S4000x11.Idx) : ∃ t : Fin cfg0.N, (cfg0.win 8).flush t = true ∧ i ∈ ((cfg0.win 8).blk t).view.set := by
  have hi0 : (i 0).val < 4000 := (i 0).isLt
  have hi1 : (i 1).val < 11 := (i 1).isLt
  obtain ⟨t, ht⟩ : ∃ t : Fin cfg0.N, t.val = (i 0).val / 200 :=
    ⟨⟨(i 0).val / 200, lt_of_lt_of_eq (by omega : (i 0).val / 200 < 20) N_0.symm⟩, rfl⟩
  obtain ⟨e0, e1⟩ := idx8 t
  refine ⟨t, flush0_8 t, ?_⟩
  rw [mem_blk8]
  intro a
  match a with
  | ⟨0, _⟩ => show win0_8.index t (0 : Fin 2) * 200 ≤ (i 0).val ∧ (i 0).val < win0_8.index t (0 : Fin 2) * 200 + 200; omega
  | ⟨1, _⟩ => show win0_8.index t (1 : Fin 2) * 11 ≤ (i 1).val ∧ (i 1).val < win0_8.index t (1 : Fin 2) * 11 + 11; omega

theorem mem_blk9 (t : Fin cfg0.N) (i : S4000x5.Idx) :
    i ∈ ((cfg0.win 9).blk t).view.set ↔ ∀ a : Fin 2, win0_9.index t a * S200x5.size a ≤ (i a).val ∧ (i a).val < win0_9.index t a * S200x5.size a + S200x5.size a := by
  show i ∈ ((View.whole main_v11_1).slice (win0_9.rect t)).set ↔ _
  rw [View.set_slice_whole, Rect.mem_set_unit]
  exact Iff.rfl

/-- Every row of the array is in the block of the point `row / 200`. -/
theorem cover9 (i : S4000x5.Idx) : ∃ t : Fin cfg0.N, (cfg0.win 9).flush t = true ∧ i ∈ ((cfg0.win 9).blk t).view.set := by
  have hi0 : (i 0).val < 4000 := (i 0).isLt
  have hi1 : (i 1).val < 5 := (i 1).isLt
  obtain ⟨t, ht⟩ : ∃ t : Fin cfg0.N, t.val = (i 0).val / 200 :=
    ⟨⟨(i 0).val / 200, lt_of_lt_of_eq (by omega : (i 0).val / 200 < 20) N_0.symm⟩, rfl⟩
  obtain ⟨e0, e1⟩ := idx9 t
  refine ⟨t, flush0_9 t, ?_⟩
  rw [mem_blk9]
  intro a
  match a with
  | ⟨0, _⟩ => show win0_9.index t (0 : Fin 2) * 200 ≤ (i 0).val ∧ (i 0).val < win0_9.index t (0 : Fin 2) * 200 + 200; omega
  | ⟨1, _⟩ => show win0_9.index t (1 : Fin 2) * 5 ≤ (i 1).val ∧ (i 1).val < win0_9.index t (1 : Fin 2) * 5 + 5; omega

/-- After the region the class-score array is `clsArr`. -/
theorem final8 : (dats m 0 c).arrAt 8 cfg0.N = clsArr m c :=
  (dats m 0 c).arrAt_eq_of_cover 8 (clsArr m c) (fun t _ => flushed8_eq m c t) cover8

/-- After the region the box array is `boxArr`. -/
theorem final9 : (dats m 0 c).arrAt 9 cfg0.N = boxArr m c :=
  (dats m 0 c).arrAt_eq_of_cover 9 (boxArr m c) (fun t _ => flushed9_eq m c t) cover9

end Cert.ArrayValue

end
-- ==== Proof.KernelValue.lean ====
/-
  The kernel program's run with its three results named.

  After the region the program only re-lays the two output arrays: the class scores `[4000, 11]` as `[2, 2000, 11]`
  and the refined boxes `[4000, 5]` as `[2, 2000, 5]`, so element `(b, n, ·)` of a result is row `b · 2000 + n` of the
  array the region left. That row is token `(b, n)`'s head, and the box it is added to is the box array's element
  `(b, n, ·)`: the results are the specification's arrays. The third result is the box argument itself, which nothing
  writes.
-/
import proofs.«128121_j1906965480114_2_alg».proof.Proof.Gen.KernelIdeal.Frame
import proofs.«128121_j1906965480114_2_alg».proof.Proof.HeadSpec
import proofs.«128121_j1906965480114_2_alg».proof.Proof.EntryValue
import proofs.«128121_j1906965480114_2_alg».proof.Proof.ArrayValue
import Idealize.ShloMosaic.Lib.StableHlo.Run
import Idealize.ShloMosaic.Lib.ValueIdx
import Idealize.ShloMosaic.Lib.Pipeline.Value

noncomputable section

namespace Cert.KernelValue

open Cert.KernelIdeal Cert.KernelIdeal.Gen Cert.HeadSpec Cert.EntryValue Cert.ArrayValue
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The first result: the class scores, token by token. -/
theorem tail_cls (c : Dev nD) :
    Pipeline.afterTail₀ cfgs (dats m) 0 (V0 m) [hostOps1] c main_v12
      = clsOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hW : Pipeline.withArrays spec0 c (V0 m c) (fun w => (dats m 0 c).arrAt w cfg0.N) (Proc.devRef .tc main_v11_0) = clsArr m c :=
    (Pipeline.withArrays_arr spec0 launch0.win.arr_inj c (V0 m c) (fun w => (dats m 0 c).arrAt w cfg0.N) 8).trans (final8 m c)
  unfold Pipeline.afterTail₀
  show StableHlo.after hostOps1 _ (Proc.devRef .tc main_v12) = _
  after_results
  show shapeCast S2x2000x11 (Pipeline.withArrays spec0 c (V0 m c) (fun w => (dats m 0 c).arrAt w cfg0.N) (Proc.devRef .tc main_v11_0))
      shapeCasts_S4000x11_S2x2000x11 = _
  rw [hW]
  funext i
  obtain ⟨b, n, j, rfl⟩ : ∃ (b : Fin 2) (n : Fin 2000) (j : Fin 11), i = ix3 b n j := ⟨i 0, i 1, i 2, eq_ix3 i⟩
  refine (shapeCast_apply _ _ (ix3 b n j) (ix2 (tok b n) j) ?_).trans rfl
  rw [Shape.rowMajor_val_two, Shape.rowMajor_val_three]
  rfl

/-- The second result: the refined boxes, token by token. -/
theorem tail_box (c : Dev nD) :
    Pipeline.afterTail₀ cfgs (dats m) 0 (V0 m) [hostOps1] c main_v13
      = boxOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg1)) (m ((c : Thread nD τ).loc main_arg8)) (m ((c : Thread nD τ).loc main_arg9)) := by
  have hW : Pipeline.withArrays spec0 c (V0 m c) (fun w => (dats m 0 c).arrAt w cfg0.N) (Proc.devRef .tc main_v11_1) = boxArr m c :=
    (Pipeline.withArrays_arr spec0 launch0.win.arr_inj c (V0 m c) (fun w => (dats m 0 c).arrAt w cfg0.N) 9).trans (final9 m c)
  unfold Pipeline.afterTail₀
  show StableHlo.after hostOps1 _ (Proc.devRef .tc main_v13) = _
  after_results
  show shapeCast S2x2000x5 (Pipeline.withArrays spec0 c (V0 m c) (fun w => (dats m 0 c).arrAt w cfg0.N) (Proc.devRef .tc main_v11_1))
      shapeCasts_S4000x5_S2x2000x5 = _
  rw [hW]
  funext i
  obtain ⟨b, n, q, rfl⟩ : ∃ (b : Fin 2) (n : Fin 2000) (q : Fin 5), i = ix3 b n q := ⟨i 0, i 1, i 2, eq_ix3 i⟩
  refine (shapeCast_apply _ _ (ix3 b n q) (ix2 (tok b n) q) ?_).trans ?_
  · rw [Shape.rowMajor_val_two, Shape.rowMajor_val_three]
    rfl
  · show box2d m c (ix2 (tok b n) q)
        + tokenHead (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (tok b n) q
      = _
    rw [show box2d m c (ix2 (tok b n) q) = m ((c : Thread nD τ).loc main_arg1) (ix3 b n q) from box_at m c b n q]
    rfl

/-- Every weakly fair execution of the kernel program ends with the class scores and the refined boxes at the
    specification's arrays of the arguments, the third result at the box argument, and the arguments unchanged. -/
theorem run : θ_run defs (onTc (τ := τ) (main (F := Ideal))) ⟨m, fun _ => 0, ρ⟩ fun r => ∀ c : Dev nD,
      r.2.mem ((c.tc : Thread nD τ).loc main_v12) = clsOut (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v13) = boxOut (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg1)) (m ((c.tc : Thread nD τ).loc main_arg8)) (m ((c.tc : Thread nD τ).loc main_arg9))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨
      ((h c).2 main_v12 (Pipeline.mem_restRefs_of main_v12 (by decide) (by decide))).trans (tail_cls m c),
      ((h c).2 main_v13 (Pipeline.mem_restRefs_of main_v13 (by decide) (by decide))).trans (tail_box m c),
      ((h c).2 main_arg1 (Pipeline.mem_restRefs_of main_arg1 (by decide) (by decide))).trans (W_main_arg1 m (dats m) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelValue

end
-- ==== Proof.lean ====
/-
  The kernel and its reference compute one function of the arguments over the extended reals.

  Both programs send each of the 4000 tokens' feature rows through two dense layers with the positive part and then
  through an affine head: class scores (weights `wc`, bias `bc`) and a box regression (weights `wr`, bias `br`) that
  is added to the token's box (Proof/HeadSpec.lean states this once). The reference does it for all tokens at once with
  the two heads apart (Proof/RefSpec.lean reads its operations at an index). The kernel does it 200 tokens at a time
  with the two heads' weights side by side in one sixteen-column matrix (Proof/BlockValue.lean: a block; Proof/EntryValue.lean:
  the operand arrays it is handed; Proof/ArrayValue.lean: the blocks tile the arrays; Proof/KernelValue.lean: the results).
  The two agree because a column of an affine map depends on that column of its weights and bias only; no other law of
  arithmetic is used, so nothing is asked of the inputs beyond what the frames ask. The third result of either program
  is its box argument. The kernel's idealization changes no operation, so there is nothing to preserve.
-/
import proofs.«128121_j1906965480114_2_alg».proof.Defs
import proofs.«128121_j1906965480114_2_alg».proof.Proof.Gen.Kernel
import proofs.«128121_j1906965480114_2_alg».proof.Proof.Gen.Kernel.Frame
import proofs.«128121_j1906965480114_2_alg».proof.Proof.Gen.KernelIdeal
import proofs.«128121_j1906965480114_2_alg».proof.Proof.Gen.KernelIdeal.Frame
import proofs.«128121_j1906965480114_2_alg».proof.Proof.Gen.ReferenceIdeal
import proofs.«128121_j1906965480114_2_alg».proof.Proof.Gen.Pre_finite_inputs
import proofs.«128121_j1906965480114_2_alg».proof.Proof.Gen.ReferenceIdeal.Run
import proofs.«128121_j1906965480114_2_alg».proof.Proof.Gen.ReferenceIdeal.Read
import proofs.«128121_j1906965480114_2_alg».proof.Proof.HeadSpec
import proofs.«128121_j1906965480114_2_alg».proof.Proof.RefSpec
import proofs.«128121_j1906965480114_2_alg».proof.Proof.KernelValue
import Idealize.ShloMosaic.Adequacy
import Idealize.ShloMosaic.Init

noncomputable section

namespace Cert.Proof

open Idealize.ShloMosaic Idealize.SL.Sem Cert.HeadSpec

theorem frame_k : Cert.frame_Kernel := fun m ρ _ => Cert.Kernel.Gen.frame m ρ

theorem frame_ki : Cert.frame_KernelIdeal := fun m ρ _ => Cert.KernelIdeal.Gen.frame m ρ

/-- The reference's run leaves its arguments as they were. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories that agree on the arguments both programs end with the specification's class scores and refined
    boxes of those arguments, and with the box argument as the third result. -/
theorem algebraic : Cert.algebraic_KernelIdeal_ReferenceIdeal := by
  intro m ρ m' ρ' _ hagree
  refine ⟨fun c => clsOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => boxOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => m ((c.tc : Thread Cert.KernelIdeal.nD Cert.KernelIdeal.τ).loc Cert.KernelIdeal.main_arg1), Cert.KernelValue.run m ρ, ?_⟩
  refine (θ_run Cert.ReferenceIdeal.defs _ _).mono (fun _ h c => ?_) (Cert.ReferenceIdeal.Value.run (F := Ideal) m' ρ')
  obtain ⟨h14, h19, hb, hkept⟩ := h c
  obtain ⟨g0, g1, g2, g3, g4, g5, g6, g7, g8, g9⟩ := hagree c
  refine ⟨?_, ?_, hb.trans g1, hkept⟩
  · refine h14.trans ((Cert.ReferenceIdeal.Read.val_main_v14_eq _ _ _ _ _ _ _).trans ((Cert.RefSpec.cls_eq _ _ _ _ _ _ _).trans ?_))
    rw [g0, g2, g3, g4, g5, g6, g7]
  · refine h19.trans ((Cert.ReferenceIdeal.Read.val_main_v19_eq _ _ _ _ _ _ _ _).trans ((Cert.RefSpec.box_eq _ _ _ _ _ _ _ _).trans ?_))
    rw [g0, g1, g2, g3, g4, g5, g8, g9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
